-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x256x7x7 : Shape := ⟨4, ![4096, 256, 7, 7]⟩
abbrev S256x32768 : Shape := ⟨2, ![256, 32768]⟩
abbrev S32768 : Shape := ⟨1, ![32768]⟩
abbrev S64 : Shape := ⟨1, ![64]⟩
abbrev S256 : Shape := ⟨1, ![256]⟩
abbrev S12544x256 : Shape := ⟨2, ![12544, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x256x7x7 : S_.BroadcastsInDim S4096x256x7x7 (![] : Fin 0 → Fin S4096x256x7x7.rank)
  reducesTo_S4096x256x7x7_S_d0_1_2_3 : S4096x256x7x7.ReducesTo [0, 1, 2, 3] S_
  bcast_S_S256x32768 : S_.BroadcastsInDim S256x32768 (![] : Fin 0 → Fin S256x32768.rank)
  reducesTo_S256x32768_S_d0_1 : S256x32768.ReducesTo [0, 1] S_
  bcast_S_S32768 : S_.BroadcastsInDim S32768 (![] : Fin 0 → Fin S32768.rank)
  reducesTo_S32768_S_d0 : S32768.ReducesTo [0] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S12544x256 : S_.BroadcastsInDim S12544x256 (![] : Fin 0 → Fin S12544x256.rank)
  reducesTo_S12544x256_S_d0_1 : S12544x256.ReducesTo [0, 1] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S12544x256 .f32) (main_arg9 : FVec F S256 .f32) (main_arg10 : FVec F S256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S12544x256 .f32 := Host.absf main_arg8
  let main_cst_14 : FVec F S_ .f32 := constant S_ .f32 0x7F800000#32
  let main_v40 : FVec F S12544x256 .f32 := broadcastInDim S12544x256 ![] bcast_S_S12544x256 main_cst_14
  let main_v41 : IVec S12544x256 1 := cmpf .olt main_v39 main_v40
  let main_c_15 : IVec S_ 1 := constantI S_ 1 1#1
  let main_v42 : IVec S_ 1 := (fun x v => Host.reduce IntOp.andi x v reducesTo_S12544x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S64 .f32) (main_arg5 : FVec F S64 .f32) (main_arg6 : FVec F S256 .f32) (main_arg7 : FVec F S256 .f32) (main_arg8 : FVec F S12544x256 .f32) (main_arg9 : FVec F S256 .f32) (main_arg10 : FVec F S256 .f32) (main_arg11 : FVec F S256 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x256 .f32) (main_arg1 : FVec F S4096x256x7x7 .f32) (main_arg2 : FVec F S256x32768 .f32) (main_arg3 : FVec F S32768 .f32) (main_arg4 : FVec F S64 .f32) (main_arg5 : FVec F S64 .f32) (main_arg6 : FVec F S256 .f32) (main_arg7 : FVec F S256 .f32) (main_arg8 : FVec F S12544x256 .f32) (main_arg9 : FVec F S256 .f32) (main_arg10 : FVec F S256 .f32) (main_arg11 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256x7x7 .f32 := Host.absf main_arg1
  let main_cst_0 : FVec F S_ .f32 := constant S_ .f32 0x7F800000#32
  let main_v5 : FVec F S4096x256x7x7 .f32 := broadcastInDim S4096x256x7x7 ![] bcast_S_S4096x256x7x7 main_cst_0
  let main_v6 : IVec S4096x256x7x7 1 := cmpf .olt main_v4 main_v5
  let main_c_1 : IVec S_ 1 := constantI S_ 1 1#1
  let main_v7 : IVec S_ 1 := (fun x v => Host.reduce IntOp.andi x v reducesTo_S4096x256x7x7_S_d0_1_2_3 h_S_) main_v6 main_c_1
  let main_v8 : IVec S_ 1 := andi main_v3 main_v7
  let main_v9 : FVec F S256x32768 .f32 := Host.absf main_arg2
  let main_cst_2 : FVec F S_ .f32 := constant S_ .f32 0x7F800000#32
  let main_v10 : FVec F S256x32768 .f32 := broadcastInDim S256x32768 ![] bcast_S_S256x32768 main_cst_2
  let main_v11 : IVec S256x32768 1 := cmpf .olt main_v9 main_v10
  let main_c_3 : IVec S_ 1 := constantI S_ 1 1#1
  let main_v12 : IVec S_ 1 := (fun x v => Host.reduce IntOp.andi x v reducesTo_S256x32768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_v13 main_v16
-- ==== Kernel.lean ====
abbrev S4096x256 : Shape := ⟨2, ![4096, 256]⟩
abbrev S4096x256x7x7 : Shape := ⟨4, ![4096, 256, 7, 7]⟩
abbrev S256x32768 : Shape := ⟨2, ![256, 32768]⟩
abbrev S32768 : Shape := ⟨1, ![32768]⟩
abbrev S64 : Shape := ⟨1, ![64]⟩
abbrev S256 : Shape := ⟨1, ![256]⟩
abbrev S12544x256 : Shape := ⟨2, ![12544, 256]⟩
abbrev S256x16384 : Shape := ⟨2, ![256, 16384]⟩
abbrev S16384 : Shape := ⟨1, ![16384]⟩
abbrev S1x16384 : Shape := ⟨2, ![1, 16384]⟩
abbrev S4096x16384 : Shape := ⟨2, ![4096, 16384]⟩
abbrev S512x256 : Shape := ⟨2, ![512, 256]⟩
abbrev S512x2048 : Shape := ⟨2, ![512, 2048]⟩
abbrev S256x2048 : Shape := ⟨2, ![256, 2048]⟩
abbrev S1x2048 : Shape := ⟨2, ![1, 2048]⟩
abbrev S4096x256x49 : Shape := ⟨3, ![4096, 256, 49]⟩
abbrev S4096x49x256 : Shape := ⟨3, ![4096, 49, 256]⟩
abbrev S1x64 : Shape := ⟨2, ![1, 64]⟩
abbrev S1x256 : Shape := ⟨2, ![1, 256]⟩
abbrev S64x49x256 : Shape := ⟨3, ![64, 49, 256]⟩
abbrev S64x16384 : Shape := ⟨2, ![64, 16384]⟩
abbrev S64x256 : Shape := ⟨2, ![64, 256]⟩
abbrev S64x256x64 : Shape := ⟨3, ![64, 256, 64]⟩
abbrev S64x49x64 : Shape := ⟨3, ![64, 49, 64]⟩
abbrev S64x49 : Shape := ⟨2, ![64, 49]⟩
abbrev S64x49x1 : Shape := ⟨3, ![64, 49, 1]⟩
abbrev S1x1x64 : Shape := ⟨3, ![1, 1, 64]⟩
abbrev S64x64x256 : Shape := ⟨3, ![64, 64, 256]⟩
abbrev S1x1x256 : Shape := ⟨3, ![1, 1, 256]⟩
abbrev S64x12544 : Shape := ⟨2, ![64, 12544]⟩
abbrev S64x1 : Shape := ⟨2, ![64, 1]⟩

abbrev nBuf : Space → Nat
  | .hbm => 34
  | .vmem => 26
  | .smem => 0
  | _ => 0

abbrev bufTy : (tb : Table) → Fin (tcTables nBuf tb) → BufTy
  | .hbm, ⟨0, _⟩ => ⟨S4096x256, .f32⟩
  | .hbm, ⟨1, _⟩ => ⟨S4096x256x7x7, .f32⟩
  | .hbm, ⟨2, _⟩ => ⟨S256x32768, .f32⟩
  | .hbm, ⟨3, _⟩ => ⟨S32768, .f32⟩
  | .hbm, ⟨4, _⟩ => ⟨S64, .f32⟩
  | .hbm, ⟨5, _⟩ => ⟨S64, .f32⟩
  | .hbm, ⟨6, _⟩ => ⟨S256, .f32⟩
  | .hbm, ⟨7, _⟩ => ⟨S256, .f32⟩
  | .hbm, ⟨8, _⟩ => ⟨S12544x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4096x256, .bf16⟩
  | .hbm, ⟨13, _⟩ => ⟨S256x16384, .f32⟩
  | .hbm, ⟨14, _⟩ => ⟨S256x16384, .bf16⟩
  | .hbm, ⟨15, _⟩ => ⟨S256x16384, .f32⟩
  | .hbm, ⟨16, _⟩ => ⟨S256x16384, .bf16⟩
  | .hbm, ⟨17, _⟩ => ⟨S16384, .f32⟩
  | .hbm, ⟨18, _⟩ => ⟨S1x16384, .f32⟩
  | .hbm, ⟨19, _⟩ => ⟨S16384, .f32⟩
  | .hbm, ⟨20, _⟩ => ⟨S1x16384, .f32⟩
  | .hbm, ⟨21, _⟩ => ⟨S4096x16384, .bf16⟩
  | .hbm, ⟨22, _⟩ => ⟨S4096x16384, .bf16⟩
  | .hbm, ⟨23, _⟩ => ⟨S4096x256x49, .f32⟩
  | .hbm, ⟨24, _⟩ => ⟨S4096x49x256, .f32⟩
  | .hbm, ⟨25, _⟩ => ⟨S1x64, .f32⟩
  | .hbm, ⟨26, _⟩ => ⟨S1x64, .f32⟩
  | .hbm, ⟨27, _⟩ => ⟨S1x256, .f32⟩
  | .hbm, ⟨28, _⟩ => ⟨S1x256, .f32⟩
  | .hbm, ⟨29, _⟩ => ⟨S12544x256, .bf16⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S256x16384, .bf16⟩
  | .local _ .vmem, ⟨3, _⟩ => ⟨S256x16384, .bf16⟩
  | .local _ .vmem, ⟨4, _⟩ => ⟨S1x16384, .f32⟩
  | .local _ .vmem, ⟨5, _⟩ => ⟨S1x16384, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S64x49x256, .f32⟩
  | .local _ .vmem, ⟨11, _⟩ => ⟨S64x49x256, .f32⟩
  | .local _ .vmem, ⟨12, _⟩ => ⟨S64x16384, .bf16⟩
  | .local _ .vmem, ⟨13, _⟩ => ⟨S64x16384, .bf16⟩
  | .local _ .vmem, ⟨14, _⟩ => ⟨S64x16384, .bf16⟩
  | .local _ .vmem, ⟨15, _⟩ => ⟨S64x16384, .bf16⟩
  | .local _ .vmem, ⟨16, _⟩ => ⟨S1x64, .f32⟩
  | .local _ .vmem, ⟨17, _⟩ => ⟨S1x64, .f32⟩
  | .local _ .vmem, ⟨18, _⟩ => ⟨S1x256, .f32⟩
  | .local _ .vmem, ⟨19, _⟩ => ⟨S1x256, .f32⟩
  | .local _ .vmem, ⟨20, _⟩ => ⟨S12544x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S64x256, .f32⟩
  | .local _ .vmem, ⟨25, _⟩ => ⟨S64x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let c0 : Index := 0#32
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  ![0, v2.toNat]
def k0_off2 (i : grid0.Coords) : Fin 2 → Nat :=
  let c0_1 : Index := 0#32
  let arg1 : BitVec 32 := BitVec.ofNat 32 (i 1).val
  let c2048_i32 : BitVec 32 := 2048#32
  let v0 : BitVec 32 := Scalar.muli arg1 c2048_i32
  let v1 : BitVec 32 := v0
  let v8 : Index := Scalar.indexCast v1
  ![0, v8.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x49x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x16384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x16384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S12544x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S64x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bitsLt_bf16_f32 : FTy.bits .bf16 < FTy.bits .f32
  slices_S256x32768_S256x16384_0_0 : S256x32768.Slices ![0, 0] S256x16384
  slices_S256x32768_S256x16384_0_16384 : S256x32768.Slices ![0, 16384] S256x16384
  slices_S32768_S16384_0 : S32768.Slices ![0] S16384
  shapeCasts_S16384_S1x16384 : S16384.ShapeCasts S1x16384
  slices_S32768_S16384_16384 : S32768.Slices ![16384] S16384
  h_S256x2048 : 0 < S256x2048.numel
  shapeCasts_S256x2048_S256x2048 : S256x2048.ShapeCasts S256x2048
  h_S1x2048 : 0 < S1x2048.numel
  shapeCasts_S1x2048_S1x2048 : S1x2048.ShapeCasts S1x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S4096x256x7x7_S4096x256x49 : S4096x256x7x7.ShapeCasts S4096x256x49
  transposes_S4096x256x49_S4096x49x256_0_2_1 : S4096x256x49.Transposes [0, 2, 1] S4096x49x256
  shapeCasts_S64_S1x64 : S64.ShapeCasts S1x64
  shapeCasts_S256_S1x256 : S256.ShapeCasts S1x256
  inb_S64x49x256_S64x49x256_0_0_0 : ∀ a, (![0, 0, 0] : Fin 3 → Nat) a + S64x49x256.size a ≤ S64x49x256.size a
  h_S64x49x256 : 0 < S64x49x256.numel
  shapeCasts_S64x49x256_S64x49x256 : S64x49x256.ShapeCasts S64x49x256
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  shapeCasts_S64x16384_S64x256x64 : S64x16384.ShapeCasts S64x256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S64x49x64_S64x49 : S64x49x64.Reduces [2] S64x49
  shapeCasts_S64x49_S64x49x1 : S64x49.ShapeCasts S64x49x1
  broadcasts_S64x49x1_S64x49x64 : S64x49x1.Broadcasts S64x49x64
  shapeCasts_S1x64_S1x1x64 : S1x64.ShapeCasts S1x1x64
  broadcasts_S1x1x64_S64x49x64 : S1x1x64.Broadcasts S64x49x64
  shapeCasts_S64x16384_S64x64x256 : S64x16384.ShapeCasts S64x64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S64x49x256_S64x49 : S64x49x256.Reduces [2] S64x49
  broadcasts_S64x49x1_S64x49x256 : S64x49x1.Broadcasts S64x49x256
  shapeCasts_S1x256_S1x1x256 : S1x256.ShapeCasts S1x1x256
  broadcasts_S1x1x256_S64x49x256 : S1x1x256.Broadcasts S64x49x256
  shapeCasts_S64x49x256_S64x12544 : S64x49x256.ShapeCasts S64x12544
  inb_S12544x256_S12544x256_0_0 : ∀ a, (![0, 0] : Fin 2 → Nat) a + S12544x256.size a ≤ S12544x256.size a
  h_S12544x256 : 0 < S12544x256.numel
  shapeCasts_S12544x256_S12544x256 : S12544x256.ShapeCasts S12544x256
  broadcasts_S1x256_S64x256 : S1x256.Broadcasts S64x256
  reduces_S64x256_S64 : S64x256.Reduces [1] S64
  shapeCasts_S64_S64x1 : S64.ShapeCasts S64x1
  broadcasts_S64x1_S64x256 : S64x1.Broadcasts S64x256
  inb_S64x256_S64x256_0_0 : ∀ a, (![0, 0] : Fin 2 → Nat) a + S64x256.size a ≤ S64x256.size a
  h_S64x256 : 0 < S64x256.numel
  dot_S512x256_S256x2048_S512x2048_1_0_0_1_n_n_wf : DotDims.WF S512x256 S256x2048 S512x2048 [1] [0] [0] [1] [] []
  dot_S64x49x256_S64x256x64_S64x49x64_2_1_1_2_0_0_wf : DotDims.WF S64x49x256 S64x256x64 S64x49x64 [2] [1] [1] [2] [0] [0]
  dot_S64x49x64_S64x64x256_S64x49x256_2_1_1_2_0_0_wf : DotDims.WF S64x49x64 S64x64x256 S64x49x256 [2] [1] [1] [2] [0] [0]
  dot_S64x12544_S12544x256_S64x256_1_0_0_1_n_n_wf : DotDims.WF S64x12544 S12544x256 S64x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S256x2048.size a ≤ S256x16384.size a
  k0_off2_inb : ∀ i : grid0.Coords, ∀ a, (k0_off2 i) a + S1x2048.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16384.size a ≤ S256x16384.size a
  hwx0_1 : ∀ i : grid0.Coords, EltTy.bits .bf16 = 32 ∨ (Rect.block (s := S256x16384) S256x16384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16384.size a ≤ S256x16384.size a
  hwx0_2 : ∀ i : grid0.Coords, EltTy.bits .bf16 = 32 ∨ (Rect.block (s := S256x16384) S256x16384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x16384.size a
  hwx0_4 : ∀ i : grid0.Coords, EltTy.bits .f32 = 32 ∨ (Rect.block (s := S1x16384) S1x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x16384.size a
  hwx0_5 : ∀ i : grid0.Coords, EltTy.bits .bf16 = 32 ∨ (Rect.block (s := S4096x16384) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S4096x16384.size a
  hwx0_6 : ∀ i : grid0.Coords, EltTy.bits .bf16 = 32 ∨ (Rect.block (s := S4096x16384) S512x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x49x256.size a ≤ S4096x49x256.size a
  hwx1_0 : ∀ i : grid1.Coords, EltTy.bits .f32 = 32 ∨ (Rect.block (s := S4096x49x256) S64x49x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x16384.size a ≤ S4096x16384.size a
  hwx1_1 : ∀ i : grid1.Coords, EltTy.bits .bf16 = 32 ∨ (Rect.block (s := S4096x16384) S64x16384.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x16384.size a ≤ S4096x16384.size a
  hwx1_2 : ∀ i : grid1.Coords, EltTy.bits .bf16 = 32 ∨ (Rect.block (s := S4096x16384) S64x16384.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S12544x256.size a ≤ S12544x256.size a
  hwx1_7 : ∀ i : grid1.Coords, EltTy.bits .bf16 = 32 ∨ (Rect.block (s := S12544x256) S12544x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S64x256.size a ≤ S4096x256.size a
  hwx1_11 : ∀ i : grid1.Coords, EltTy.bits .f32 = 32 ∨ (Rect.block (s := S4096x256) S64x256.size (cc1_transform_11 i) (hinb1_11 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S64x49x256_S64x256x64_S64x49x64_2_1_1_2_0_0 : DotDims S64x49x256 S64x256x64 S64x49x64 where
  lhsContracting := [2]
  rhsContracting := [1]
  lhsNonContracting := [1]
  rhsNonContracting := [2]
  lhsBatch := [0]
  rhsBatch := [0]
  wf := dot_S64x49x256_S64x256x64_S64x49x64_2_1_1_2_0_0_wf
def dot_S64x49x64_S64x64x256_S64x49x256_2_1_1_2_0_0 : DotDims S64x49x64 S64x64x256 S64x49x256 where
  lhsContracting := [2]
  rhsContracting := [1]
  lhsNonContracting := [1]
  rhsNonContracting := [2]
  lhsBatch := [0]
  rhsBatch := [0]
  wf := dot_S64x49x64_S64x64x256_S64x49x256_2_1_1_2_0_0_wf
def dot_S64x12544_S12544x256_S64x256_1_0_0_1_n_n : DotDims S64x12544 S12544x256 S64x256 where
  lhsContracting := [1]
  rhsContracting := [0]
  lhsNonContracting := [0]
  rhsNonContracting := [1]
  lhsBatch := []
  rhsBatch := []
  wf := dot_S64x12544_S12544x256_S64x256_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S64x49x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_0) S64x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_1) S64x16384.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S12544x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v19) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S64x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x256x7x7 : Shape := ⟨4, ![4096, 256, 7, 7]⟩
abbrev S256x32768 : Shape := ⟨2, ![256, 32768]⟩
abbrev S32768 : Shape := ⟨1, ![32768]⟩
abbrev S64 : Shape := ⟨1, ![64]⟩
abbrev S256 : Shape := ⟨1, ![256]⟩
abbrev S12544x256 : Shape := ⟨2, ![12544, 256]⟩
abbrev S4096x256x49 : Shape := ⟨3, ![4096, 256, 49]⟩
abbrev S4096x49x256 : Shape := ⟨3, ![4096, 49, 256]⟩
abbrev S4096x32768 : Shape := ⟨2, ![4096, 32768]⟩
abbrev S1x32768 : Shape := ⟨2, ![1, 32768]⟩
abbrev S4096x16384 : Shape := ⟨2, ![4096, 16384]⟩
abbrev S4096x256x64 : Shape := ⟨3, ![4096, 256, 64]⟩
abbrev S4096x64x256 : Shape := ⟨3, ![4096, 64, 256]⟩
abbrev S4096x49x64 : Shape := ⟨3, ![4096, 49, 64]⟩
abbrev S_ : Shape := ⟨0, ![]⟩
abbrev S4096x49 : Shape := ⟨2, ![4096, 49]⟩
abbrev S4096x49x1 : Shape := ⟨3, ![4096, 49, 1]⟩
abbrev S1x1x64 : Shape := ⟨3, ![1, 1, 64]⟩
abbrev S1x1x256 : Shape := ⟨3, ![1, 1, 256]⟩
abbrev S4096x12544 : Shape := ⟨2, ![4096, 12544]⟩
abbrev S1x256 : Shape := ⟨2, ![1, 256]⟩
abbrev S4096 : Shape := ⟨1, ![4096]⟩
abbrev S4096x1 : Shape := ⟨2, ![4096, 1]⟩

abbrev nBuf : Space → Nat
  | .hbm => 125
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256x7x7, .f32⟩
  | .hbm, ⟨2, _⟩ => ⟨S256x32768, .f32⟩
  | .hbm, ⟨3, _⟩ => ⟨S32768, .f32⟩
  | .hbm, ⟨4, _⟩ => ⟨S64, .f32⟩
  | .hbm, ⟨5, _⟩ => ⟨S64, .f32⟩
  | .hbm, ⟨6, _⟩ => ⟨S256, .f32⟩
  | .hbm, ⟨7, _⟩ => ⟨S256, .f32⟩
  | .hbm, ⟨8, _⟩ => ⟨S12544x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4096x256x49, .f32⟩
  | .hbm, ⟨13, _⟩ => ⟨S4096x49x256, .f32⟩
  | .hbm, ⟨14, _⟩ => ⟨S4096x32768, .f32⟩
  | .hbm, ⟨15, _⟩ => ⟨S1x32768, .f32⟩
  | .hbm, ⟨16, _⟩ => ⟨S4096x32768, .f32⟩
  | .hbm, ⟨17, _⟩ => ⟨S4096x32768, .f32⟩
  | .hbm, ⟨18, _⟩ => ⟨S4096x16384, .f32⟩
  | .hbm, ⟨19, _⟩ => ⟨S4096x256x64, .f32⟩
  | .hbm, ⟨20, _⟩ => ⟨S4096x16384, .f32⟩
  | .hbm, ⟨21, _⟩ => ⟨S4096x64x256, .f32⟩
  | .hbm, ⟨22, _⟩ => ⟨S4096x49x64, .f32⟩
  | .hbm, ⟨23, _⟩ => ⟨S_, .f32⟩
  | .hbm, ⟨24, _⟩ => ⟨S4096x49, .f32⟩
  | .hbm, ⟨25, _⟩ => ⟨S4096x49x1, .f32⟩
  | .hbm, ⟨26, _⟩ => ⟨S_, .f32⟩
  | .hbm, ⟨27, _⟩ => ⟨S4096x49x1, .f32⟩
  | .hbm, ⟨28, _⟩ => ⟨S4096x49x1, .f32⟩
  | .hbm, ⟨29, _⟩ => ⟨S4096x49x64, .f32⟩
  | .hbm, ⟨30, _⟩ => ⟨S4096x49x64, .f32⟩
  | .hbm, ⟨31, _⟩ => ⟨S4096x49x64, .f32⟩
  | .hbm, ⟨32, _⟩ => ⟨S_, .f32⟩
  | .hbm, ⟨33, _⟩ => ⟨S4096x49, .f32⟩
  | .hbm, ⟨34, _⟩ => ⟨S4096x49x1, .f32⟩
  | .hbm, ⟨35, _⟩ => ⟨S_, .f32⟩
  | .hbm, ⟨36, _⟩ => ⟨S4096x49x1, .f32⟩
  | .hbm, ⟨37, _⟩ => ⟨S4096x49x1, .f32⟩
  | .hbm, ⟨38, _⟩ => ⟨S4096x49x64, .f32⟩
  | .hbm, ⟨39, _⟩ => ⟨S4096x49x64, .f32⟩
  | .hbm, ⟨40, _⟩ => ⟨S_, .f32⟩
  | .hbm, ⟨41, _⟩ => ⟨S4096x49x1, .f32⟩
  | .hbm, ⟨42, _⟩ => ⟨S4096x49x1, .f32⟩
  | .hbm, ⟨43, _⟩ => ⟨S4096x49x1, .f32⟩
  | .hbm, ⟨44, _⟩ => ⟨S4096x49x64, .f32⟩
  | .hbm, ⟨45, _⟩ => ⟨S4096x49x64, .f32⟩
  | .hbm, ⟨46, _⟩ => ⟨S1x1x64, .f32⟩
  | .hbm, ⟨47, _⟩ => ⟨S4096x49x64, .f32⟩
  | .hbm, ⟨48, _⟩ => ⟨S4096x49x64, .f32⟩
  | .hbm, ⟨49, _⟩ => ⟨S1x1x64, .f32⟩
  | .hbm, ⟨50, _⟩ => ⟨S4096x49x64, .f32⟩
  | .hbm, ⟨51, _⟩ => ⟨S4096x49x64, .f32⟩
  | .hbm, ⟨52, _⟩ => ⟨S_, .f32⟩
  | .hbm, ⟨53, _⟩ => ⟨S4096x49x64, .f32⟩
  | .hbm, ⟨54, _⟩ => ⟨S4096x49x64, .f32⟩
  | .hbm, ⟨55, _⟩ => ⟨S4096x49x256, .f32⟩
  | .hbm, ⟨56, _⟩ => ⟨S_, .f32⟩
  | .hbm, ⟨57, _⟩ => ⟨S4096x49, .f32⟩
  | .hbm, ⟨58, _⟩ => ⟨S4096x49x1, .f32⟩
  | .hbm, ⟨59, _⟩ => ⟨S_, .f32⟩
  | .hbm, ⟨60, _⟩ => ⟨S4096x49x1, .f32⟩
  | .hbm, ⟨61, _⟩ => ⟨S4096x49x1, .f32⟩
  | .hbm, ⟨62, _⟩ => ⟨S4096x49x256, .f32⟩
  | .hbm, ⟨63, _⟩ => ⟨S4096x49x256, .f32⟩
  | .hbm, ⟨64, _⟩ => ⟨S4096x49x256, .f32⟩
  | .hbm, ⟨65, _⟩ => ⟨S_, .f32⟩
  | .hbm, ⟨66, _⟩ => ⟨S4096x49, .f32⟩
  | .hbm, ⟨67, _⟩ => ⟨S4096x49x1, .f32⟩
  | .hbm, ⟨68, _⟩ => ⟨S_, .f32⟩
  | .hbm, ⟨69, _⟩ => ⟨S4096x49x1, .f32⟩
  | .hbm, ⟨70, _⟩ => ⟨S4096x49x1, .f32⟩
  | .hbm, ⟨71, _⟩ => ⟨S4096x49x256, .f32⟩
  | .hbm, ⟨72, _⟩ => ⟨S4096x49x256, .f32⟩
  | .hbm, ⟨73, _⟩ => ⟨S_, .f32⟩
  | .hbm, ⟨74, _⟩ => ⟨S4096x49x1, .f32⟩
  | .hbm, ⟨75, _⟩ => ⟨S4096x49x1, .f32⟩
  | .hbm, ⟨76, _⟩ => ⟨S4096x49x1, .f32⟩
  | .hbm, ⟨77, _⟩ => ⟨S4096x49x256, .f32⟩
  | .hbm, ⟨78, _⟩ => ⟨S4096x49x256, .f32⟩
  | .hbm, ⟨79, _⟩ => ⟨S1x1x256, .f32⟩
  | .hbm, ⟨80, _⟩ => ⟨S4096x49x256, .f32⟩
  | .hbm, ⟨81, _⟩ => ⟨S4096x49x256, .f32⟩
  | .hbm, ⟨82, _⟩ => ⟨S1x1x256, .f32⟩
  | .hbm, ⟨83, _⟩ => ⟨S4096x49x256, .f32⟩
  | .hbm, ⟨84, _⟩ => ⟨S4096x49x256, .f32⟩
  | .hbm, ⟨85, _⟩ => ⟨S_, .f32⟩
  | .hbm, ⟨86, _⟩ => ⟨S4096x49x256, .f32⟩
  | .hbm, ⟨87, _⟩ => ⟨S4096x49x256, .f32⟩
  | .hbm, ⟨88, _⟩ => ⟨S4096x12544, .f32⟩
  | .hbm, ⟨89, _⟩ => ⟨S4096x256, .f32⟩
  | .hbm, ⟨90, _⟩ => ⟨S1x256, .f32⟩
  | .hbm, ⟨91, _⟩ => ⟨S4096x256, .f32⟩
  | .hbm, ⟨92, _⟩ => ⟨S4096x256, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x256, .f32⟩
  | .hbm, ⟨100, _⟩ => ⟨S4096x256, .f32⟩
  | .hbm, ⟨101, _⟩ => ⟨S4096x256, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S4096x256, .f32⟩
  | .hbm, ⟨109, _⟩ => ⟨S4096x256, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S4096x1, .f32⟩
  | .hbm, ⟨114, _⟩ => ⟨S4096x256, .f32⟩
  | .hbm, ⟨115, _⟩ => ⟨S4096x256, .f32⟩
  | .hbm, ⟨116, _⟩ => ⟨S1x256, .f32⟩
  | .hbm, ⟨117, _⟩ => ⟨S4096x256, .f32⟩
  | .hbm, ⟨118, _⟩ => ⟨S4096x256, .f32⟩
  | .hbm, ⟨119, _⟩ => ⟨S1x256, .f32⟩
  | .hbm, ⟨120, _⟩ => ⟨S4096x256, .f32⟩
  | .hbm, ⟨121, _⟩ => ⟨S4096x256, .f32⟩
  | .hbm, ⟨122, _⟩ => ⟨S_, .f32⟩
  | .hbm, ⟨123, _⟩ => ⟨S4096x256, .f32⟩
  | .hbm, ⟨124, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call2_cst : Ref sig .tc := ⟨.hbm, 122, rfl⟩
abbrev main_call2_v0 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  shapeCasts_S4096x256x7x7_S4096x256x49 : S4096x256x7x7.ShapeCasts S4096x256x49
  transposes_S4096x256x49_S4096x49x256_0_2_1 : S4096x256x49.Transposes [0, 2, 1] S4096x49x256
  bcast_S32768_S1x32768_1 : S32768.BroadcastsInDim S1x32768 (![1] : Fin 1 → Fin S1x32768.rank)
  bcast_S1x32768_S4096x32768_0_1 : S1x32768.BroadcastsInDim S4096x32768 (![0, 1] : Fin 2 → Fin S4096x32768.rank)
  slices_S4096x32768_S4096x16384_0_0 : S4096x32768.Slices ![0, 0] S4096x16384
  shapeCasts_S4096x16384_S4096x256x64 : S4096x16384.ShapeCasts S4096x256x64
  slices_S4096x32768_S4096x16384_0_16384 : S4096x32768.Slices ![0, 16384] S4096x16384
  shapeCasts_S4096x16384_S4096x64x256 : S4096x16384.ShapeCasts S4096x64x256
  reducesTo_S4096x49x64_S4096x49_d2 : S4096x49x64.ReducesTo [2] S4096x49
  h_S_ : 0 < S_.numel
  bcast_S4096x49_S4096x49x1_0_1 : S4096x49.BroadcastsInDim S4096x49x1 (![0, 1] : Fin 2 → Fin S4096x49x1.rank)
  bcast_S_S4096x49x1 : S_.BroadcastsInDim S4096x49x1 (![] : Fin 0 → Fin S4096x49x1.rank)
  bcast_S4096x49x1_S4096x49x64_0_1_2 : S4096x49x1.BroadcastsInDim S4096x49x64 (![0, 1, 2] : Fin 3 → Fin S4096x49x64.rank)
  bcast_S64_S1x1x64_2 : S64.BroadcastsInDim S1x1x64 (![2] : Fin 1 → Fin S1x1x64.rank)
  bcast_S1x1x64_S4096x49x64_0_1_2 : S1x1x64.BroadcastsInDim S4096x49x64 (![0, 1, 2] : Fin 3 → Fin S4096x49x64.rank)
  bcast_S_S4096x49x64 : S_.BroadcastsInDim S4096x49x64 (![] : Fin 0 → Fin S4096x49x64.rank)
  reducesTo_S4096x49x256_S4096x49_d2 : S4096x49x256.ReducesTo [2] S4096x49
  bcast_S4096x49x1_S4096x49x256_0_1_2 : S4096x49x1.BroadcastsInDim S4096x49x256 (![0, 1, 2] : Fin 3 → Fin S4096x49x256.rank)
  bcast_S256_S1x1x256_2 : S256.BroadcastsInDim S1x1x256 (![2] : Fin 1 → Fin S1x1x256.rank)
  bcast_S1x1x256_S4096x49x256_0_1_2 : S1x1x256.BroadcastsInDim S4096x49x256 (![0, 1, 2] : Fin 3 → Fin S4096x49x256.rank)
  bcast_S_S4096x49x256 : S_.BroadcastsInDim S4096x49x256 (![] : Fin 0 → Fin S4096x49x256.rank)
  shapeCasts_S4096x49x256_S4096x12544 : S4096x49x256.ShapeCasts S4096x12544
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096x256 : S_.BroadcastsInDim S4096x256 (![] : Fin 0 → Fin S4096x256.rank)
  dot_S4096x256_S256x32768_S4096x32768_1_0_0_1_n_n_wf : DotDims.WF S4096x256 S256x32768 S4096x32768 [1] [0] [0] [1] [] []
  dot_S4096x49x256_S4096x256x64_S4096x49x64_2_1_1_2_0_0_wf : DotDims.WF S4096x49x256 S4096x256x64 S4096x49x64 [2] [1] [1] [2] [0] [0]
  dot_S4096x49x64_S4096x64x256_S4096x49x256_2_1_1_2_0_0_wf : DotDims.WF S4096x49x64 S4096x64x256 S4096x49x256 [2] [1] [1] [2] [0] [0]
  dot_S4096x12544_S12544x256_S4096x256_1_0_0_1_n_n_wf : DotDims.WF S4096x12544 S12544x256 S4096x256 [1] [0] [0] [1] [] []

variable [Facts₀]

def dot_S4096x256_S256x32768_S4096x32768_1_0_0_1_n_n : DotDims S4096x256 S256x32768 S4096x32768 where
  lhsContracting := [1]
  rhsContracting := [0]
  lhsNonContracting := [0]
  rhsNonContracting := [1]
  lhsBatch := []
  rhsBatch := []
  wf := dot_S4096x256_S256x32768_S4096x32768_1_0_0_1_n_n_wf
def dot_S4096x49x256_S4096x256x64_S4096x49x64_2_1_1_2_0_0 : DotDims S4096x49x256 S4096x256x64 S4096x49x64 where
  lhsContracting := [2]
  rhsContracting := [1]
  lhsNonContracting := [1]
  rhsNonContracting := [2]
  lhsBatch := [0]
  rhsBatch := [0]
  wf := dot_S4096x49x256_S4096x256x64_S4096x49x64_2_1_1_2_0_0_wf
def dot_S4096x49x64_S4096x64x256_S4096x49x256_2_1_1_2_0_0 : DotDims S4096x49x64 S4096x64x256 S4096x49x256 where
  lhsContracting := [2]
  rhsContracting := [1]
  lhsNonContracting := [1]
  rhsNonContracting := [2]
  lhsBatch := [0]
  rhsBatch := [0]
  wf := dot_S4096x49x64_S4096x64x256_S4096x49x256_2_1_1_2_0_0_wf
def dot_S4096x12544_S12544x256_S4096x256_1_0_0_1_n_n : DotDims S4096x12544 S12544x256 S4096x256 where
  lhsContracting := [1]
  rhsContracting := [0]
  lhsNonContracting := [0]
  rhsNonContracting := [1]
  lhsBatch := []
  rhsBatch := []
  wf := dot_S4096x12544_S12544x256_S4096x256_1_0_0_1_n_n_wf

class Facts : Prop extends Facts₀ where

variable [Facts]
-- ==== Proof.LibRowReads.lean ====
/-
  Reads at an index, given by coordinates, of the vector operations a row normalisation is made of — for arrays whose
  LAST axis is the row: the sum along the last axis of a rank-3 and of a rank-2 array (`vector.multi_reduction <add>` at
  the extended reals), the casts that keep the reduced axis as a unit axis ([a,b] → [a,b,1], [a] → [a,1]), the broadcasts
  back along the last axis ([a,b,1] → [a,b,k], [a,1] → [a,k]) and of one row over the leading axes ([1,1,k] → [a,b,k]).
  Every lemma is stated for arbitrary extents and read at `ix2` / `ix3` of plain `Fin` coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowReads

open Idealize.ShloMosaic Idealize.ShloMosaic.ValueIdx

variable {α : Type}

/-! ## Casts that keep a reduced last axis as a unit axis -/

/-- An `[a, b]` array seen as `[a, b, 1]`: entry `(i, j, 0)` is entry `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    omega)

/-- An `[a]` vector seen as the column `[a, 1]`: entry `(i, 0)` is entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- An `[a, b·c]` array seen as `[a, b, c]`: entry `(i, p, q)` is entry `(i, p·c + q)`. -/
theorem shapeCast_a_bc_apply {a b c n : ℕ} (x : (⟨2, ![a, n]⟩ : Shape).Idx → α)
    (h : (⟨2, ![a, n]⟩ : Shape).ShapeCasts ⟨3, ![a, b, c]⟩) (i : Fin a) (p : Fin b) (q : Fin c) (k : Fin n)
    (hk : k.val = p.val * c + q.val) (hn : n = b * c) :
    shapeCast ⟨3, ![a, b, c]⟩ x h (ix3 i p q) = x (ix2 i k) :=
  shapeCast_apply x h _ _ (by
    rw [Shape.rowMajor_val_two, Shape.rowMajor_val_three]
    show i.val * n + k.val = (i.val * b + p.val) * c + q.val
    rw [hk, hn, Nat.add_mul, Nat.mul_assoc, Nat.add_assoc])

/-- An `[a, b, c]` array seen as `[a, b·c]`: entry `(i, k)` is entry `(i, p, q)` for `k = p·c + q`. -/
theorem shapeCast_abc_a_apply {a b c n : ℕ} (x : (⟨3, ![a, b, c]⟩ : Shape).Idx → α)
    (h : (⟨3, ![a, b, c]⟩ : Shape).ShapeCasts ⟨2, ![a, n]⟩) (i : Fin a) (p : Fin b) (q : Fin c) (k : Fin n)
    (hk : k.val = p.val * c + q.val) (hn : n = b * c) :
    shapeCast ⟨2, ![a, n]⟩ x h (ix2 i k) = x (ix3 i p q) :=
  shapeCast_apply x h _ _ (by
    rw [Shape.rowMajor_val_two, Shape.rowMajor_val_three]
    show (i.val * b + p.val) * c + q.val = i.val * n + k.val
    rw [hk, hn, Nat.add_mul, Nat.mul_assoc, Nat.add_assoc])

/-! ## Broadcasts along the last axis, and of one row over the leading axes -/

/-- An `[a, b, 1]` array broadcast to `[a, b, k]` reads, at `(i, j, c)`, its entry `(i, j, 0)`. -/
theorem broadcastTo_ab1_abk_apply {a b k : ℕ} (v : (⟨3, ![a, b, 1]⟩ : Shape).Idx → α)
    (h : (⟨3, ![a, b, 1]⟩ : Shape).Broadcasts ⟨3, ![a, b, k]⟩) (i : Fin a) (j : Fin b) (c : Fin k) :
    broadcastTo ⟨3, ![a, b, k]⟩ v h (ix3 i j c) = v (ix3 i j (0 : Fin 1)) := by
  refine broadcastTo_apply v h (ix3 i j c) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, k]` array broadcast to `[a, b, k]` reads, at `(i, j, c)`, its entry `(0, 0, c)`. -/
theorem broadcastTo_11k_abk_apply {a b k : ℕ} (v : (⟨3, ![1, 1, k]⟩ : Shape).Idx → α)
    (h : (⟨3, ![1, 1, k]⟩ : Shape).Broadcasts ⟨3, ![a, b, k]⟩) (i : Fin a) (j : Fin b) (c : Fin k) :
    broadcastTo ⟨3, ![a, b, k]⟩ v h (ix3 i j c) = v (ix3 (0 : Fin 1) (0 : Fin 1) c) := by
  refine broadcastTo_apply v h (ix3 i j c) (ix3 (0 : Fin 1) (0 : Fin 1) c) fun ax => ?_
  match ax with
  | ⟨0, _⟩ => rfl
  | ⟨1, _⟩ => rfl
  | ⟨2, _⟩ =>
    show c.val = if k = 1 then 0 else c.val
    split
    · have := c.isLt; omega
    · rfl

/-- An `[a, 1]` column broadcast to `[a, k]` reads, at `(i, c)`, its entry `(i, 0)`. -/
theorem broadcastTo_a1_ak_apply {a k : ℕ} (v : (⟨2, ![a, 1]⟩ : Shape).Idx → α)
    (h : (⟨2, ![a, 1]⟩ : Shape).Broadcasts ⟨2, ![a, k]⟩) (i : Fin a) (c : Fin k) :
    broadcastTo ⟨2, ![a, k]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## Sums along the last axis, at the extended reals -/

/-- The sum along the last axis of a rank-3 array, read at `(i, j)`: the row's entries added up. -/
theorem rowSum3_apply {a b k : ℕ} (v : FVec Ideal ⟨3, ![a, b, k]⟩ .f32)
    (h : (⟨3, ![a, b, k]⟩ : Shape).Reduces [2] ⟨2, ![a, b]⟩) (hφ : FKind.Formats .f32)
    (hacc : (0x00000000#32 : BitVec FTy.f32.bits) = FKind.add.neutral .f32 hφ) (i : Fin a) (j : Fin b) :
    multiReduction .add [2] ⟨2, ![a, b]⟩ v 0x00000000#32 h hφ hacc (ix2 i j) = ∑ c : Fin k, v (ix3 i j c) := by
  refine (Ideal.multiReduction_add_single v 0x00000000#32 h hφ hacc (ix2 i j)).trans ?_
  exact Finset.sum_congr rfl fun c _ => congrArg v (funext fun x => Fin.ext (by
    match x with
    | ⟨0, _⟩ => rfl
    | ⟨1, _⟩ => rfl
    | ⟨2, _⟩ => rfl))

/-- The sum along the last axis of a rank-2 array, read at `i`: the row's entries added up. -/
theorem rowSum2_apply {a k : ℕ} (v : FVec Ideal ⟨2, ![a, k]⟩ .f32)
    (h : (⟨2, ![a, k]⟩ : Shape).Reduces [1] ⟨1, ![a]⟩) (hφ : FKind.Formats .f32)
    (hacc : (0x00000000#32 : BitVec FTy.f32.bits) = FKind.add.neutral .f32 hφ) (i : Fin a) :
    multiReduction .add [1] ⟨1, ![a]⟩ v 0x00000000#32 h hφ hacc (ix1 i) = ∑ c : Fin k, v (ix2 i c) := by
  refine (Ideal.multiReduction_add_single v 0x00000000#32 h hφ hacc (ix1 i)).trans ?_
  exact Finset.sum_congr rfl fun c _ => congrArg v (funext fun x => Fin.ext (by
    match x with
    | ⟨0, _⟩ => rfl
    | ⟨1, _⟩ => rfl))

end Cert.RowReads

end
-- ==== Proof.Spec.lean ====
/-
  The mathematics both programs compute, per sample, over plain coordinates.

  For one sample the data are: its 49 spatial rows of 256 input channels `x s c`; the sample's own two weight
  matrices `pin c f` (256 × 64) and `pout f o` (64 × 256), themselves an affine image of the sample's parameter row
  (`affineEntry`); and the shared scale, shift and dense-layer weights. The sample's result is

    normClamp 256 (dense (normClamp 256 (mix2 (normClamp 64 (mix1 x pin)) pout)))

  where `mix1` and `mix2` are the two per-position matrix products (the 1×1 convolutions), `dense` flattens the
  49 × 256 activations position-major and applies the fully connected layer, and `normClamp` is a row's layer
  normalisation — subtract the mean, multiply by the reciprocal square root of the variance plus ε, scale, shift —
  followed by the clamp at zero. Every operation is the extended reals' own; the constants are kept as the float words
  that denote them, since the same word stands on both sides and is never evaluated.
-/
import Idealize.ShloMosaic.PureOps.Ideal
import Idealize.ShloMosaic.PureOps.Ideal.Laws
import Idealize.ShloMosaic.Lib.ValueIdx

noncomputable section

namespace Cert.Spec

open Idealize.ShloMosaic

/-- The mean of a row: its sum divided by the count `cnt` (the float that denotes the row's length). -/
def rowMean {K : ℕ} (cnt : EReal) (v : Fin K → EReal) : EReal :=
  Ideal.div (∑ i : Fin K, v i) cnt

/-- The variance of a row about its mean: the sum of the squared deviations divided by the count. -/
def rowVar {K : ℕ} (cnt : EReal) (v : Fin K → EReal) : EReal :=
  Ideal.div (∑ i : Fin K, (v i - rowMean cnt v) * (v i - rowMean cnt v)) cnt

/-- Layer normalisation of the row `v` with scale `g` and shift `b`, then the clamp at zero:
    `max (((v k − mean) · (var + ε)^(−1/2)) · g k + b k) 0`, with ε the float word of `1e-5`. -/
def normClamp {K : ℕ} (cnt : EReal) (v g b : Fin K → EReal) (k : Fin K) : EReal :=
  max (((v k - rowMean cnt v) * Ideal.rsqrt (rowVar cnt v + Ideal.ofBits .f32 0x3727C5AC#32)) * g k + b k)
    (Ideal.ofBits .f32 0x00000000#32)

/-- The float word of `64`, the length of a row of the first normalisation. -/
abbrev c64 : EReal := Ideal.ofBits .f32 0x42800000#32
/-- The float word of `256`, the length of a row of the second and third normalisations. -/
abbrev c256 : EReal := Ideal.ofBits .f32 0x43800000#32

/-- One entry of the affine map that makes a sample's weights: the parameter row `p` against column `j` of the
    generator matrix `W`, plus the bias at `j`. -/
def affineEntry (p : Fin 256 → EReal) (W : Fin 256 → EReal) (b : EReal) : EReal :=
  (∑ c : Fin 256, p c * W c) + b

/-- The first per-position product: position `s`'s 256 channels against the sample's 256 × 64 matrix. -/
def mix1 (x : Fin 49 → Fin 256 → EReal) (pin : Fin 256 → Fin 64 → EReal) (s : Fin 49) (f : Fin 64) : EReal :=
  ∑ c : Fin 256, x s c * pin c f

/-- The second per-position product: position `s`'s 64 features against the sample's 64 × 256 matrix. -/
def mix2 (h : Fin 49 → Fin 64 → EReal) (pout : Fin 64 → Fin 256 → EReal) (s : Fin 49) (o : Fin 256) : EReal :=
  ∑ f : Fin 64, h s f * pout f o

/-- The position and the channel of a flattened coordinate `j < 49 · 256` (position-major). -/
def flatPos (j : Fin 12544) : Fin 49 := ⟨j.val / 256, by have := j.isLt; omega⟩
def flatChan (j : Fin 12544) : Fin 256 := ⟨j.val % 256, Nat.mod_lt _ (by norm_num)⟩

/-- The fully connected layer on the flattened activations: `∑ j, h (pos j) (chan j) · W j k + b k`. -/
def dense (h : Fin 49 → Fin 256 → EReal) (W : Fin 12544 → Fin 256 → EReal) (b : Fin 256 → EReal) (k : Fin 256) : EReal :=
  (∑ j : Fin 12544, h (flatPos j) (flatChan j) * W j k) + b k

/-- A sample's result row. -/
def sampleOut (x : Fin 49 → Fin 256 → EReal) (pin : Fin 256 → Fin 64 → EReal) (pout : Fin 64 → Fin 256 → EReal)
    (gIn bIn : Fin 64 → EReal) (gOut bOut : Fin 256 → EReal) (Wfc : Fin 12544 → Fin 256 → EReal)
    (bFc gFc beFc : Fin 256 → EReal) : Fin 256 → EReal :=
  normClamp c256
    (dense (fun s => normClamp c256 (mix2 (fun s' => normClamp c64 (mix1 x pin s') gIn bIn) pout s) gOut bOut) Wfc bFc)
    gFc beFc

/-! ## The whole result as one function of the twelve argument arrays -/

open Idealize.ShloMosaic.ValueIdx

/-- The spatial row and column of position `s < 49` of the 7 × 7 map (row-major). -/
def posRow (s : Fin 49) : Fin 7 := ⟨s.val / 7, by have := s.isLt; omega⟩
def posCol (s : Fin 49) : Fin 7 := ⟨s.val % 7, Nat.mod_lt _ (by norm_num)⟩

/-- Column `c · 64 + f` of the generator matrix: entry `(c, f)` of a sample's first weight matrix. -/
def inCol (c : Fin 256) (f : Fin 64) : Fin 32768 := ⟨c.val * 64 + f.val, by have := c.isLt; have := f.isLt; omega⟩
/-- Column `16384 + f · 256 + o` of the generator matrix: entry `(f, o)` of a sample's second weight matrix. -/
def outCol (f : Fin 64) (o : Fin 256) : Fin 32768 := ⟨16384 + (f.val * 256 + o.val), by have := f.isLt; have := o.isLt; omega⟩

/-- Entry `j` of sample `n`'s generated parameter row: `∑ c, param n c · Wdyn c j + bdyn j`. -/
def genEntry (a0 : FVec Ideal ⟨2, ![4096, 256]⟩ .f32) (a2 : FVec Ideal ⟨2, ![256, 32768]⟩ .f32)
    (a3 : FVec Ideal ⟨1, ![32768]⟩ .f32) (n : Fin 4096) (j : Fin 32768) : EReal :=
  affineEntry (fun c => a0 (ix2 n c)) (fun c => a2 (ix2 c j)) (a3 (ix1 j))

/-- Sample `n`'s input as 49 positions of 256 channels: the 7 × 7 map flattened, channels last. -/
def sampleX (a1 : FVec Ideal ⟨4, ![4096, 256, 7, 7]⟩ .f32) (n : Fin 4096) (s : Fin 49) (c : Fin 256) : EReal :=
  a1 (ix4 n c (posRow s) (posCol s))

/-- The result of sample `n` at output channel `k`, from the twelve argument arrays. -/
def outAt (a0 : FVec Ideal ⟨2, ![4096, 256]⟩ .f32) (a1 : FVec Ideal ⟨4, ![4096, 256, 7, 7]⟩ .f32)
    (a2 : FVec Ideal ⟨2, ![256, 32768]⟩ .f32) (a3 : FVec Ideal ⟨1, ![32768]⟩ .f32)
    (a4 a5 : FVec Ideal ⟨1, ![64]⟩ .f32) (a6 a7 : FVec Ideal ⟨1, ![256]⟩ .f32)
    (a8 : FVec Ideal ⟨2, ![12544, 256]⟩ .f32) (a9 a10 a11 : FVec Ideal ⟨1, ![256]⟩ .f32)
    (n : Fin 4096) (k : Fin 256) : EReal :=
  sampleOut (sampleX a1 n) (fun c f => genEntry a0 a2 a3 n (inCol c f)) (fun f o => genEntry a0 a2 a3 n (outCol f o))
    (fun f => a4 (ix1 f)) (fun f => a5 (ix1 f)) (fun o => a6 (ix1 o)) (fun o => a7 (ix1 o))
    (fun j k' => a8 (ix2 j k')) (fun k' => a9 (ix1 k')) (fun k' => a10 (ix1 k')) (fun k' => a11 (ix1 k')) k

/-- The result array: entry `i` is sample `i 0`'s result at channel `i 1`. -/
def G (a0 : FVec Ideal ⟨2, ![4096, 256]⟩ .f32) (a1 : FVec Ideal ⟨4, ![4096, 256, 7, 7]⟩ .f32)
    (a2 : FVec Ideal ⟨2, ![256, 32768]⟩ .f32) (a3 : FVec Ideal ⟨1, ![32768]⟩ .f32)
    (a4 a5 : FVec Ideal ⟨1, ![64]⟩ .f32) (a6 a7 : FVec Ideal ⟨1, ![256]⟩ .f32)
    (a8 : FVec Ideal ⟨2, ![12544, 256]⟩ .f32) (a9 a10 a11 : FVec Ideal ⟨1, ![256]⟩ .f32) :
    FVec Ideal ⟨2, ![4096, 256]⟩ .f32 :=
  fun i => outAt a0 a1 a2 a3 a4 a5 a6 a7 a8 a9 a10 a11 ⟨(i 0).val, idx2_lt0 i⟩ ⟨(i 1).val, idx2_lt1 i⟩

theorem G_ix2 (a0 : FVec Ideal ⟨2, ![4096, 256]⟩ .f32) (a1 : FVec Ideal ⟨4, ![4096, 256, 7, 7]⟩ .f32)
    (a2 : FVec Ideal ⟨2, ![256, 32768]⟩ .f32) (a3 : FVec Ideal ⟨1, ![32768]⟩ .f32)
    (a4 a5 : FVec Ideal ⟨1, ![64]⟩ .f32) (a6 a7 : FVec Ideal ⟨1, ![256]⟩ .f32)
    (a8 : FVec Ideal ⟨2, ![12544, 256]⟩ .f32) (a9 a10 a11 : FVec Ideal ⟨1, ![256]⟩ .f32) (n : Fin 4096) (k : Fin 256) :
    G a0 a1 a2 a3 a4 a5 a6 a7 a8 a9 a10 a11 (ix2 n k) = outAt a0 a1 a2 a3 a4 a5 a6 a7 a8 a9 a10 a11 n k := rfl

end Cert.Spec

end
-- ==== Proof.LibRowNorm.lean ====
/-
  A row's layer normalisation followed by the clamp at zero, as the vector operations spell it, read at an index: for a
  rank-3 array normalised along its last axis (`normClamp3_apply`) and for a rank-2 array (`normClamp2_apply`), each
  entry is `Cert.Spec.normClamp` of the entry's row. The mean is the row sum divided by the count word, kept as a unit
  last axis and broadcast back; the variance likewise from the squared deviations; scale and shift are one row `[1, k]`
  broadcast over the leading axes. Stated for arbitrary extents.
-/
import proofs.«139996_j24970939859163_2_alg».proof.Proof.LibRowReads
import proofs.«139996_j24970939859163_2_alg».proof.Proof.Spec

noncomputable section

namespace Cert.RowReads

open Idealize.ShloMosaic Idealize.ShloMosaic.ValueIdx

/-! ## Rank 3 -/

section rank3

variable {a b k : ℕ} (cw : BitVec 32) (v : FVec Ideal ⟨3, ![a, b, k]⟩ .f32)
  (hr : (⟨3, ![a, b, k]⟩ : Shape).Reduces [2] ⟨2, ![a, b]⟩) (hφ : FKind.Formats .f32)
  (hacc : (0x00000000#32 : BitVec FTy.f32.bits) = FKind.add.neutral .f32 hφ)
  (hsc : (⟨2, ![a, b]⟩ : Shape).ShapeCasts ⟨3, ![a, b, 1]⟩)
  (hb : (⟨3, ![a, b, 1]⟩ : Shape).Broadcasts ⟨3, ![a, b, k]⟩)

/-- The row means, kept as a unit last axis: the row sums divided by the count word. -/
def meanCol3 : FVec Ideal ⟨3, ![a, b, 1]⟩ .f32 :=
  divf (shapeCast ⟨3, ![a, b, 1]⟩ (multiReduction .add [2] ⟨2, ![a, b]⟩ v 0x00000000#32 hr hφ hacc) hsc)
    (broadcast ⟨3, ![a, b, 1]⟩ (Scalar.ofBits .f32 cw))

theorem meanCol3_apply (i : Fin a) (j : Fin b) (u : Fin 1) :
    meanCol3 cw v hr hφ hacc hsc (ix3 i j u) = Cert.Spec.rowMean (Ideal.ofBits .f32 cw) (fun c => v (ix3 i j c)) := by
  unfold meanCol3 Cert.Spec.rowMean
  show Ideal.div (shapeCast ⟨3, ![a, b, 1]⟩ (multiReduction .add [2] ⟨2, ![a, b]⟩ v 0x00000000#32 hr hφ hacc) hsc (ix3 i j u))
      (Ideal.ofBits .f32 cw) = _
  rw [shapeCast_ab_ab1_apply, rowSum3_apply]

/-- The deviations from the row mean. -/
def dev3 : FVec Ideal ⟨3, ![a, b, k]⟩ .f32 :=
  subf v (broadcastTo ⟨3, ![a, b, k]⟩ (meanCol3 cw v hr hφ hacc hsc) hb)

theorem dev3_apply (i : Fin a) (j : Fin b) (c : Fin k) :
    dev3 cw v hr hφ hacc hsc hb (ix3 i j c)
      = v (ix3 i j c) - Cert.Spec.rowMean (Ideal.ofBits .f32 cw) (fun c' => v (ix3 i j c')) := by
  unfold dev3
  show v (ix3 i j c) - broadcastTo ⟨3, ![a, b, k]⟩ (meanCol3 cw v hr hφ hacc hsc) hb (ix3 i j c) = _
  rw [broadcastTo_ab1_abk_apply, meanCol3_apply]

/-- The reciprocal square root of the row variance plus ε, kept as a unit last axis. -/
def rstdCol3 : FVec Ideal ⟨3, ![a, b, 1]⟩ .f32 :=
  rsqrt (addf (meanCol3 cw (mulf (dev3 cw v hr hφ hacc hsc hb) (dev3 cw v hr hφ hacc hsc hb)) hr hφ hacc hsc)
    (broadcast ⟨3, ![a, b, 1]⟩ (Scalar.ofBits .f32 0x3727C5AC#32)))

theorem rstdCol3_apply (i : Fin a) (j : Fin b) (u : Fin 1) :
    rstdCol3 cw v hr hφ hacc hsc hb (ix3 i j u)
      = Ideal.rsqrt (Cert.Spec.rowVar (Ideal.ofBits .f32 cw) (fun c => v (ix3 i j c)) + Ideal.ofBits .f32 0x3727C5AC#32) := by
  unfold rstdCol3
  show Ideal.rsqrt (meanCol3 cw (mulf (dev3 cw v hr hφ hacc hsc hb) (dev3 cw v hr hφ hacc hsc hb)) hr hφ hacc hsc (ix3 i j u)
      + Ideal.ofBits .f32 0x3727C5AC#32) = _
  rw [meanCol3_apply]
  unfold Cert.Spec.rowVar Cert.Spec.rowMean
  refine congrArg (fun x => Ideal.rsqrt (Ideal.div x (Ideal.ofBits .f32 cw) + Ideal.ofBits .f32 0x3727C5AC#32)) ?_
  refine Finset.sum_congr rfl fun c _ => ?_
  show dev3 cw v hr hφ hacc hsc hb (ix3 i j c) * dev3 cw v hr hφ hacc hsc hb (ix3 i j c) = _
  rw [dev3_apply]; rfl

variable (g bb : FVec Ideal ⟨2, ![1, k]⟩ .f32)
  (hsg : (⟨2, ![1, k]⟩ : Shape).ShapeCasts ⟨3, ![1, 1, k]⟩)
  (hbg : (⟨3, ![1, 1, k]⟩ : Shape).Broadcasts ⟨3, ![a, b, k]⟩)

/-- The normalised, scaled, shifted and clamped array, as the vector operations spell it. -/
def normClampV3 : FVec Ideal ⟨3, ![a, b, k]⟩ .f32 :=
  maximumf
    (addf
      (mulf
        (mulf (dev3 cw v hr hφ hacc hsc hb) (broadcastTo ⟨3, ![a, b, k]⟩ (rstdCol3 cw v hr hφ hacc hsc hb) hb))
        (broadcastTo ⟨3, ![a, b, k]⟩ (shapeCast ⟨3, ![1, 1, k]⟩ g hsg) hbg))
      (broadcastTo ⟨3, ![a, b, k]⟩ (shapeCast ⟨3, ![1, 1, k]⟩ bb hsg) hbg))
    (broadcast ⟨3, ![a, b, k]⟩ (Scalar.ofBits .f32 0x00000000#32))

/-- Each entry is the normalise-and-clamp of its row. -/
theorem normClampV3_apply (i : Fin a) (j : Fin b) (c : Fin k) :
    normClampV3 cw v hr hφ hacc hsc hb g bb hsg hbg (ix3 i j c)
      = Cert.Spec.normClamp (Ideal.ofBits .f32 cw) (fun c' => v (ix3 i j c')) (fun c' => g (ix2 (0 : Fin 1) c'))
          (fun c' => bb (ix2 (0 : Fin 1) c')) c := by
  unfold normClampV3 Cert.Spec.normClamp
  show max (dev3 cw v hr hφ hacc hsc hb (ix3 i j c)
        * broadcastTo ⟨3, ![a, b, k]⟩ (rstdCol3 cw v hr hφ hacc hsc hb) hb (ix3 i j c)
        * broadcastTo ⟨3, ![a, b, k]⟩ (shapeCast ⟨3, ![1, 1, k]⟩ g hsg) hbg (ix3 i j c)
        + broadcastTo ⟨3, ![a, b, k]⟩ (shapeCast ⟨3, ![1, 1, k]⟩ bb hsg) hbg (ix3 i j c))
      (Ideal.ofBits .f32 0x00000000#32) = _
  rw [dev3_apply, broadcastTo_ab1_abk_apply, rstdCol3_apply, broadcastTo_11k_abk_apply, broadcastTo_11k_abk_apply,
    shapeCast_ab_1ab_apply, shapeCast_ab_1ab_apply]

end rank3

/-! ## Rank 2 -/

section rank2

variable {a k : ℕ} (cw : BitVec 32) (v : FVec Ideal ⟨2, ![a, k]⟩ .f32)
  (hr : (⟨2, ![a, k]⟩ : Shape).Reduces [1] ⟨1, ![a]⟩) (hφ : FKind.Formats .f32)
  (hacc : (0x00000000#32 : BitVec FTy.f32.bits) = FKind.add.neutral .f32 hφ)
  (hsc : (⟨1, ![a]⟩ : Shape).ShapeCasts ⟨2, ![a, 1]⟩)
  (hb : (⟨2, ![a, 1]⟩ : Shape).Broadcasts ⟨2, ![a, k]⟩)

/-- The row means as a column. -/
def meanCol2 : FVec Ideal ⟨2, ![a, 1]⟩ .f32 :=
  divf (shapeCast ⟨2, ![a, 1]⟩ (multiReduction .add [1] ⟨1, ![a]⟩ v 0x00000000#32 hr hφ hacc) hsc)
    (broadcast ⟨2, ![a, 1]⟩ (Scalar.ofBits .f32 cw))

theorem meanCol2_apply (i : Fin a) (u : Fin 1) :
    meanCol2 cw v hr hφ hacc hsc (ix2 i u) = Cert.Spec.rowMean (Ideal.ofBits .f32 cw) (fun c => v (ix2 i c)) := by
  unfold meanCol2 Cert.Spec.rowMean
  show Ideal.div (shapeCast ⟨2, ![a, 1]⟩ (multiReduction .add [1] ⟨1, ![a]⟩ v 0x00000000#32 hr hφ hacc) hsc (ix2 i u))
      (Ideal.ofBits .f32 cw) = _
  rw [shapeCast_a_a1_apply, rowSum2_apply]

/-- The deviations from the row mean. -/
def dev2 : FVec Ideal ⟨2, ![a, k]⟩ .f32 :=
  subf v (broadcastTo ⟨2, ![a, k]⟩ (meanCol2 cw v hr hφ hacc hsc) hb)

theorem dev2_apply (i : Fin a) (c : Fin k) :
    dev2 cw v hr hφ hacc hsc hb (ix2 i c)
      = v (ix2 i c) - Cert.Spec.rowMean (Ideal.ofBits .f32 cw) (fun c' => v (ix2 i c')) := by
  unfold dev2
  show v (ix2 i c) - broadcastTo ⟨2, ![a, k]⟩ (meanCol2 cw v hr hφ hacc hsc) hb (ix2 i c) = _
  rw [broadcastTo_a1_ak_apply, meanCol2_apply]

/-- The reciprocal square root of the row variance plus ε, as a column. -/
def rstdCol2 : FVec Ideal ⟨2, ![a, 1]⟩ .f32 :=
  rsqrt (addf (meanCol2 cw (mulf (dev2 cw v hr hφ hacc hsc hb) (dev2 cw v hr hφ hacc hsc hb)) hr hφ hacc hsc)
    (broadcast ⟨2, ![a, 1]⟩ (Scalar.ofBits .f32 0x3727C5AC#32)))

theorem rstdCol2_apply (i : Fin a) (u : Fin 1) :
    rstdCol2 cw v hr hφ hacc hsc hb (ix2 i u)
      = Ideal.rsqrt (Cert.Spec.rowVar (Ideal.ofBits .f32 cw) (fun c => v (ix2 i c)) + Ideal.ofBits .f32 0x3727C5AC#32) := by
  unfold rstdCol2
  show Ideal.rsqrt (meanCol2 cw (mulf (dev2 cw v hr hφ hacc hsc hb) (dev2 cw v hr hφ hacc hsc hb)) hr hφ hacc hsc (ix2 i u)
      + Ideal.ofBits .f32 0x3727C5AC#32) = _
  rw [meanCol2_apply]
  unfold Cert.Spec.rowVar Cert.Spec.rowMean
  refine congrArg (fun x => Ideal.rsqrt (Ideal.div x (Ideal.ofBits .f32 cw) + Ideal.ofBits .f32 0x3727C5AC#32)) ?_
  refine Finset.sum_congr rfl fun c _ => ?_
  show dev2 cw v hr hφ hacc hsc hb (ix2 i c) * dev2 cw v hr hφ hacc hsc hb (ix2 i c) = _
  rw [dev2_apply]; rfl

variable (g bb : FVec Ideal ⟨2, ![1, k]⟩ .f32) (hbg : (⟨2, ![1, k]⟩ : Shape).Broadcasts ⟨2, ![a, k]⟩)

/-- The normalised, scaled, shifted and clamped array, as the vector operations spell it. -/
def normClampV2 : FVec Ideal ⟨2, ![a, k]⟩ .f32 :=
  maximumf
    (addf
      (mulf
        (mulf (dev2 cw v hr hφ hacc hsc hb) (broadcastTo ⟨2, ![a, k]⟩ (rstdCol2 cw v hr hφ hacc hsc hb) hb))
        (broadcastTo ⟨2, ![a, k]⟩ g hbg))
      (broadcastTo ⟨2, ![a, k]⟩ bb hbg))
    (broadcast ⟨2, ![a, k]⟩ (Scalar.ofBits .f32 0x00000000#32))

/-- Each entry is the normalise-and-clamp of its row. -/
theorem normClampV2_apply (i : Fin a) (c : Fin k) :
    normClampV2 cw v hr hφ hacc hsc hb g bb hbg (ix2 i c)
      = Cert.Spec.normClamp (Ideal.ofBits .f32 cw) (fun c' => v (ix2 i c')) (fun c' => g (ix2 (0 : Fin 1) c'))
          (fun c' => bb (ix2 (0 : Fin 1) c')) c := by
  unfold normClampV2 Cert.Spec.normClamp
  show max (dev2 cw v hr hφ hacc hsc hb (ix2 i c)
        * broadcastTo ⟨2, ![a, k]⟩ (rstdCol2 cw v hr hφ hacc hsc hb) hb (ix2 i c)
        * broadcastTo ⟨2, ![a, k]⟩ g hbg (ix2 i c)
        + broadcastTo ⟨2, ![a, k]⟩ bb hbg (ix2 i c))
      (Ideal.ofBits .f32 0x00000000#32) = _
  rw [dev2_apply, broadcastTo_a1_ak_apply, rstdCol2_apply, broadcastTo_1b_ab_apply, broadcastTo_1b_ab_apply]

end rank2

end Cert.RowReads

end
-- ==== Proof.Region1Body.lean ====
/-
  The second pallas_call's body, read at an index of its output block, at the extended reals.

  The body works on a block of 64 samples. For local sample `r` it holds the sample's 49 × 256 input rows, its two weight
  rows (16384 entries each, seen as a 256 × 64 and a 64 × 256 matrix, row-major) and the shared rows. Its three matrix
  products are sums over the contracted coordinate (`prod1_apply`, `prod2_apply`, `prod3_apply`), its three
  normalisations are `Cert.Spec.normClamp` of a row, and the flattening before the last product is the position-major
  split of the contracted index; so the stored block's entry `(r, k)` is `Cert.Spec.sampleOut` of local sample `r`'s data.
-/
import proofs.«139996_j24970939859163_2_alg».proof.Proof.Gen.KernelIdeal.Frame
import proofs.«139996_j24970939859163_2_alg».proof.Proof.LibRowNorm
import proofs.«139996_j24970939859163_2_alg».proof.Proof.Spec

set_option maxRecDepth 16384

noncomputable section

namespace Cert.KernelIdeal.Region1

open Cert.KernelIdeal Cert.KernelIdeal.Gen Idealize.ShloMosaic Idealize.ShloMosaic.ValueIdx Cert.RowReads

/-! ## The three products as sums -/

abbrev D1 := dot_S64x49x256_S64x256x64_S64x49x64_2_1_1_2_0_0
abbrev D2 := dot_S64x49x64_S64x64x256_S64x49x256_2_1_1_2_0_0
abbrev D3 := dot_S64x12544_S12544x256_S64x256_1_0_0_1_n_n

theorem lhs1_0 (i : S64x49x64.Idx) (q : D1.contr.Idx) : (D1.lhsIdx i q 0).val = (i 0).val := by
  unfold DotDims.lhsIdx
  rw [dif_pos (show (0 : Fin S64x49x256.rank) ∈ D1.lhsBatch by decide)]
  rfl
theorem lhs1_1 (i : S64x49x64.Idx) (q : D1.contr.Idx) : (D1.lhsIdx i q 1).val = (i 1).val := by
  unfold DotDims.lhsIdx
  rw [dif_neg (show ¬(1 : Fin S64x49x256.rank) ∈ D1.lhsBatch by decide), dif_pos (show (1 : Fin S64x49x256.rank) ∈ D1.lhsNonContracting by decide)]
  rfl
theorem lhs1_2 (i : S64x49x64.Idx) (q : D1.contr.Idx) : (D1.lhsIdx i q 2).val = (q ⟨0, by decide⟩).val :=
  D1.lhsIdx_val_of_single rfl i q
theorem rhs1_0 (i : S64x49x64.Idx) (q : D1.contr.Idx) : (D1.rhsIdx i q 0).val = (i 0).val := by
  unfold DotDims.rhsIdx
  rw [dif_pos (show (0 : Fin S64x256x64.rank) ∈ D1.rhsBatch by decide)]
  rfl
theorem rhs1_1 (i : S64x49x64.Idx) (q : D1.contr.Idx) : (D1.rhsIdx i q 1).val = (q ⟨0, by decide⟩).val :=
  D1.rhsIdx_val_of_single rfl i q
theorem rhs1_2 (i : S64x49x64.Idx) (q : D1.contr.Idx) : (D1.rhsIdx i q 2).val = (i 2).val := by
  unfold DotDims.rhsIdx
  rw [dif_neg (show ¬(2 : Fin S64x256x64.rank) ∈ D1.rhsBatch by decide), dif_pos (show (2 : Fin S64x256x64.rank) ∈ D1.rhsNonContracting by decide)]
  rfl

/-- The first product, per sample and position: 256 channels against the sample's 256 × 64 matrix. -/
theorem prod1_apply (l : FVec Ideal S64x49x256 .bf16) (r : FVec Ideal S64x256x64 .bf16) (n : Fin 64) (s : Fin 49) (f : Fin 64) :
    matmul D1 none l r (constant S64x49x64 .f32 0x00000000#32) (ix3 n s f) = ∑ c : Fin 256, l (ix3 n s c) * r (ix3 n c f) := by
  refine (Ideal.matmul_constant_zero_apply D1 none l r (ix3 n s f)).trans ?_
  rw [← Equiv.sum_comp (contrEquiv1 D1 256 rfl rfl).symm]
  refine Finset.sum_congr rfl fun k _ => ?_
  have hk := contrEquiv1_symm_val D1 256 rfl rfl k
  have el : D1.lhsIdx (ix3 n s f) ((contrEquiv1 D1 256 rfl rfl).symm k) = ix3 n s k := funext fun a => Fin.ext (by
    match a with
    | ⟨0, _⟩ => exact lhs1_0 _ _
    | ⟨1, _⟩ => exact lhs1_1 _ _
    | ⟨2, _⟩ => exact (lhs1_2 _ _).trans hk)
  have er : D1.rhsIdx (ix3 n s f) ((contrEquiv1 D1 256 rfl rfl).symm k) = ix3 n k f := funext fun a => Fin.ext (by
    match a with
    | ⟨0, _⟩ => exact rhs1_0 _ _
    | ⟨1, _⟩ => exact (rhs1_1 _ _).trans hk
    | ⟨2, _⟩ => exact rhs1_2 _ _)
  rw [el, er]

theorem lhs2_0 (i : S64x49x256.Idx) (q : D2.contr.Idx) : (D2.lhsIdx i q 0).val = (i 0).val := by
  unfold DotDims.lhsIdx
  rw [dif_pos (show (0 : Fin S64x49x64.rank) ∈ D2.lhsBatch by decide)]
  rfl
theorem lhs2_1 (i : S64x49x256.Idx) (q : D2.contr.Idx) : (D2.lhsIdx i q 1).val = (i 1).val := by
  unfold DotDims.lhsIdx
  rw [dif_neg (show ¬(1 : Fin S64x49x64.rank) ∈ D2.lhsBatch by decide), dif_pos (show (1 : Fin S64x49x64.rank) ∈ D2.lhsNonContracting by decide)]
  rfl
theorem lhs2_2 (i : S64x49x256.Idx) (q : D2.contr.Idx) : (D2.lhsIdx i q 2).val = (q ⟨0, by decide⟩).val :=
  D2.lhsIdx_val_of_single rfl i q
theorem rhs2_0 (i : S64x49x256.Idx) (q : D2.contr.Idx) : (D2.rhsIdx i q 0).val = (i 0).val := by
  unfold DotDims.rhsIdx
  rw [dif_pos (show (0 : Fin S64x64x256.rank) ∈ D2.rhsBatch by decide)]
  rfl
theorem rhs2_1 (i : S64x49x256.Idx) (q : D2.contr.Idx) : (D2.rhsIdx i q 1).val = (q ⟨0, by decide⟩).val :=
  D2.rhsIdx_val_of_single rfl i q
theorem rhs2_2 (i : S64x49x256.Idx) (q : D2.contr.Idx) : (D2.rhsIdx i q 2).val = (i 2).val := by
  unfold DotDims.rhsIdx
  rw [dif_neg (show ¬(2 : Fin S64x64x256.rank) ∈ D2.rhsBatch by decide), dif_pos (show (2 : Fin S64x64x256.rank) ∈ D2.rhsNonContracting by decide)]
  rfl

/-- The second product, per sample and position: 64 features against the sample's 64 × 256 matrix. -/
theorem prod2_apply (l : FVec Ideal S64x49x64 .bf16) (r : FVec Ideal S64x64x256 .bf16) (n : Fin 64) (s : Fin 49) (o : Fin 256) :
    matmul D2 none l r (constant S64x49x256 .f32 0x00000000#32) (ix3 n s o) = ∑ f : Fin 64, l (ix3 n s f) * r (ix3 n f o) := by
  refine (Ideal.matmul_constant_zero_apply D2 none l r (ix3 n s o)).trans ?_
  rw [← Equiv.sum_comp (contrEquiv1 D2 64 rfl rfl).symm]
  refine Finset.sum_congr rfl fun k _ => ?_
  have hk := contrEquiv1_symm_val D2 64 rfl rfl k
  have el : D2.lhsIdx (ix3 n s o) ((contrEquiv1 D2 64 rfl rfl).symm k) = ix3 n s k := funext fun a => Fin.ext (by
    match a with
    | ⟨0, _⟩ => exact lhs2_0 _ _
    | ⟨1, _⟩ => exact lhs2_1 _ _
    | ⟨2, _⟩ => exact (lhs2_2 _ _).trans hk)
  have er : D2.rhsIdx (ix3 n s o) ((contrEquiv1 D2 64 rfl rfl).symm k) = ix3 n k o := funext fun a => Fin.ext (by
    match a with
    | ⟨0, _⟩ => exact rhs2_0 _ _
    | ⟨1, _⟩ => exact (rhs2_1 _ _).trans hk
    | ⟨2, _⟩ => exact rhs2_2 _ _)
  rw [el, er]

theorem lhs3_0 (i : S64x256.Idx) (q : D3.contr.Idx) : (D3.lhsIdx i q 0).val = (i 0).val := by
  unfold DotDims.lhsIdx
  rw [dif_neg (show ¬(0 : Fin S64x12544.rank) ∈ D3.lhsBatch by decide), dif_pos (show (0 : Fin S64x12544.rank) ∈ D3.lhsNonContracting by decide)]
  rfl
theorem lhs3_1 (i : S64x256.Idx) (q : D3.contr.Idx) : (D3.lhsIdx i q 1).val = (q ⟨0, by decide⟩).val :=
  D3.lhsIdx_val_of_single rfl i q
theorem rhs3_0 (i : S64x256.Idx) (q : D3.contr.Idx) : (D3.rhsIdx i q 0).val = (q ⟨0, by decide⟩).val :=
  D3.rhsIdx_val_of_single rfl i q
theorem rhs3_1 (i : S64x256.Idx) (q : D3.contr.Idx) : (D3.rhsIdx i q 1).val = (i 1).val := by
  unfold DotDims.rhsIdx
  rw [dif_neg (show ¬(1 : Fin S12544x256.rank) ∈ D3.rhsBatch by decide), dif_pos (show (1 : Fin S12544x256.rank) ∈ D3.rhsNonContracting by decide)]
  rfl

/-- The third product: a sample's 12544 flattened activations against the dense layer's matrix. -/
theorem prod3_apply (l : FVec Ideal S64x12544 .bf16) (r : FVec Ideal S12544x256 .bf16) (n : Fin 64) (k : Fin 256) :
    matmul D3 none l r (constant S64x256 .f32 0x00000000#32) (ix2 n k) = ∑ j : Fin 12544, l (ix2 n j) * r (ix2 j k) := by
  refine (Ideal.matmul_constant_zero_apply D3 none l r (ix2 n k)).trans ?_
  rw [← Equiv.sum_comp (contrEquiv1 D3 12544 rfl rfl).symm]
  refine Finset.sum_congr rfl fun q _ => ?_
  have hk := contrEquiv1_symm_val D3 12544 rfl rfl q
  have el : D3.lhsIdx (ix2 n k) ((contrEquiv1 D3 12544 rfl rfl).symm q) = ix2 n q := funext fun a => Fin.ext (by
    match a with
    | ⟨0, _⟩ => exact lhs3_0 _ _
    | ⟨1, _⟩ => exact (lhs3_1 _ _).trans hk)
  have er : D3.rhsIdx (ix2 n k) ((contrEquiv1 D3 12544 rfl rfl).symm q) = ix2 q k := funext fun a => Fin.ext (by
    match a with
    | ⟨0, _⟩ => exact (rhs3_0 _ _).trans hk
    | ⟨1, _⟩ => exact rhs3_1 _ _)
  rw [el, er]

/-! ## A sample's two weight rows as matrices -/

/-- Column `c · 64 + f` of a 16384-wide weight row: entry `(c, f)` of the 256 × 64 matrix. -/
def inIdx (c : Fin 256) (f : Fin 64) : Fin 16384 := ⟨c.val * 64 + f.val, by have := c.isLt; have := f.isLt; omega⟩
/-- Column `f · 256 + o` of a 16384-wide weight row: entry `(f, o)` of the 64 × 256 matrix. -/
def outIdx (f : Fin 64) (o : Fin 256) : Fin 16384 := ⟨f.val * 256 + o.val, by have := f.isLt; have := o.isLt; omega⟩

/-! ## The payloads, read at an index -/

/-- A sample's second weight row seen as its 64 × 256 matrix. -/
theorem pay3_apply (v38 : FVec Ideal S64x16384 .bf16) (r : Fin 64) (f : Fin 64) (o : Fin 256) :
    k1_pay3 (F := Ideal) v38 (ix3 r f o) = v38 (ix2 r (outIdx f o)) := by
  unfold k1_pay3
  show shapeCast S64x64x256 (shapeCast S64x16384 v38 shapeCasts_S64x16384_S64x16384) shapeCasts_S64x16384_S64x64x256 (ix3 r f o) = _
  rw [shapeCast_self]
  exact shapeCast_a_bc_apply v38 _ r f o (outIdx f o) rfl rfl

/-- After the first product, normalisation and clamp: local sample `r`'s first activations. -/
theorem pay2_apply (v0 : FVec Ideal S64x49x256 .f32) (v3 : FVec Ideal S64x16384 .bf16) (v7 v9 : FVec Ideal S1x64 .f32)
    (r : Fin 64) (s : Fin 49) (f : Fin 64) :
    k1_pay2 (F := Ideal) v0 v3 v7 v9 (ix3 r s f)
      = Cert.Spec.normClamp Cert.Spec.c64
          (Cert.Spec.mix1 (fun s' c => v0 (ix3 r s' c)) (fun c f' => v3 (ix2 r (inIdx c f'))) s)
          (fun f' => v7 (ix2 (0 : Fin 1) f')) (fun f' => v9 (ix2 (0 : Fin 1) f')) f := by
  have e : k1_pay2 (F := Ideal) v0 v3 v7 v9 (ix3 r s f)
      = normClampV3 0x42800000#32
          (matmul D1 none (truncf .bf16 (shapeCast S64x49x256 v0 shapeCasts_S64x49x256_S64x49x256) bitsLt_bf16_f32)
            (shapeCast S64x256x64 (shapeCast S64x16384 v3 shapeCasts_S64x16384_S64x16384) shapeCasts_S64x16384_S64x256x64)
            (constant S64x49x64 .f32 0x00000000#32))
          reduces_S64x49x64_S64x49 (.inl rfl) rfl shapeCasts_S64x49_S64x49x1 broadcasts_S64x49x1_S64x49x64
          (shapeCast S1x64 v7 shapeCasts_S1x64_S1x64) (shapeCast S1x64 v9 shapeCasts_S1x64_S1x64)
          shapeCasts_S1x64_S1x1x64 broadcasts_S1x1x64_S64x49x64 (ix3 r s f) := rfl
  refine e.trans ((normClampV3_apply _ _ _ _ _ _ _ _ _ _ _ r s f).trans ?_)
  simp only [shapeCast_self]
  refine congrArg (fun w => Cert.Spec.normClamp Cert.Spec.c64 w _ _ f) (funext fun f' => ?_)
  rw [prod1_apply]
  unfold Cert.Spec.mix1
  refine Finset.sum_congr rfl fun c _ => ?_
  rw [shapeCast_a_bc_apply v3 _ r c f' (inIdx c f') rfl rfl]
  rfl

/-- After the second product, normalisation, clamp, flattening and the dense layer with its bias: local sample `r`'s
    pre-activation of the last normalisation. -/
theorem pay4_apply (v37 : FVec Ideal S64x49x64 .bf16) (v40 : FVec Ideal S64x64x256 .bf16) (v42 v44 : FVec Ideal S1x256 .f32)
    (v74 : FVec Ideal S12544x256 .bf16) (v77 : FVec Ideal S1x256 .f32) (r : Fin 64) (k : Fin 256) :
    k1_pay4 (F := Ideal) v37 v40 v42 v44 v74 v77 (ix2 r k)
      = Cert.Spec.dense
          (fun s => Cert.Spec.normClamp Cert.Spec.c256
            (Cert.Spec.mix2 (fun s' f => v37 (ix3 r s' f)) (fun f o => v40 (ix3 r f o)) s)
            (fun o => v42 (ix2 (0 : Fin 1) o)) (fun o => v44 (ix2 (0 : Fin 1) o)))
          (fun j k' => v74 (ix2 j k')) (fun k' => v77 (ix2 (0 : Fin 1) k')) k := by
  have e : k1_pay4 (F := Ideal) v37 v40 v42 v44 v74 v77 (ix2 r k)
      = matmul D3 none
          (truncf .bf16 (shapeCast S64x12544
            (normClampV3 0x43800000#32 (matmul D2 none v37 v40 (constant S64x49x256 .f32 0x00000000#32))
              reduces_S64x49x256_S64x49 (.inl rfl) rfl shapeCasts_S64x49_S64x49x1 broadcasts_S64x49x1_S64x49x256
              (shapeCast S1x256 v42 shapeCasts_S1x256_S1x256) (shapeCast S1x256 v44 shapeCasts_S1x256_S1x256)
              shapeCasts_S1x256_S1x1x256 broadcasts_S1x1x256_S64x49x256)
            shapeCasts_S64x49x256_S64x12544) bitsLt_bf16_f32)
          (shapeCast S12544x256 v74 shapeCasts_S12544x256_S12544x256) (constant S64x256 .f32 0x00000000#32) (ix2 r k)
        + broadcastTo S64x256 (shapeCast S1x256 v77 shapeCasts_S1x256_S1x256) broadcasts_S1x256_S64x256 (ix2 r k) := rfl
  rw [e, prod3_apply, broadcastTo_1b_ab_apply]
  simp only [shapeCast_self]
  unfold Cert.Spec.dense
  refine congrArg (· + v77 (ix2 (0 : Fin 1) k)) (Finset.sum_congr rfl fun j _ => ?_)
  refine congrArg (· * v74 (ix2 j k)) ?_
  refine (truncf_apply (ψ := .bf16) _ bitsLt_bf16_f32 (ix2 r j)).trans ?_
  refine (shapeCast_abc_a_apply _ _ r (Cert.Spec.flatPos j) (Cert.Spec.flatChan j) j
    (by show j.val = j.val / 256 * 256 + j.val % 256; omega) rfl).trans ?_
  refine (normClampV3_apply _ _ _ _ _ _ _ _ _ _ _ r (Cert.Spec.flatPos j) (Cert.Spec.flatChan j)).trans ?_
  refine congrArg (fun w => Cert.Spec.normClamp Cert.Spec.c256 w _ _ (Cert.Spec.flatChan j)) (funext fun o => ?_)
  rw [prod2_apply]
  rfl

/-- The last normalisation and clamp: local sample `r`'s result row. -/
theorem pay1_apply (v80 : FVec Ideal S64x256 .f32) (v82 v83 : FVec Ideal S1x256 .f32) (r : Fin 64) (k : Fin 256) :
    k1_pay1 (F := Ideal) v80 v82 v83 (ix2 r k)
      = Cert.Spec.normClamp Cert.Spec.c256 (fun k' => v80 (ix2 r k')) (fun k' => v82 (ix2 (0 : Fin 1) k'))
          (fun k' => v83 (ix2 (0 : Fin 1) k')) k := by
  have e : k1_pay1 (F := Ideal) v80 v82 v83 (ix2 r k)
      = normClampV2 0x43800000#32 v80 reduces_S64x256_S64 (.inl rfl) rfl shapeCasts_S64_S64x1 broadcasts_S64x1_S64x256
          v82 (shapeCast S1x256 v83 shapeCasts_S1x256_S1x256) broadcasts_S1x256_S64x256 (ix2 r k) := rfl
  refine e.trans ((normClampV2_apply _ _ _ _ _ _ _ _ _ _ r k).trans ?_)
  simp only [shapeCast_self]

/-- THE BODY'S STORED BLOCK at `(r, k)`: the result of local sample `r` at channel `k`, from the eleven input blocks. -/
theorem body_apply (x0 : FVec Ideal S64x49x256 .f32) (x1 x2 : FVec Ideal S64x16384 .bf16) (x3 x4 : FVec Ideal S1x64 .f32)
    (x5 x6 : FVec Ideal S1x256 .f32) (x7 : FVec Ideal S12544x256 .bf16) (x8 x9 x10 : FVec Ideal S1x256 .f32)
    (r : Fin 64) (k : Fin 256) :
    k1_pay1 (F := Ideal) (k1_pay4 (k1_pay2 x0 x1 x3 x4) (k1_pay3 x2) x5 x6 x7 x8) (k1_pay5 x9) x10 (ix2 r k)
      = Cert.Spec.sampleOut (fun s c => x0 (ix3 r s c)) (fun c f => x1 (ix2 r (inIdx c f))) (fun f o => x2 (ix2 r (outIdx f o)))
          (fun f => x3 (ix2 (0 : Fin 1) f)) (fun f => x4 (ix2 (0 : Fin 1) f)) (fun o => x5 (ix2 (0 : Fin 1) o))
          (fun o => x6 (ix2 (0 : Fin 1) o)) (fun j k' => x7 (ix2 j k')) (fun k' => x8 (ix2 (0 : Fin 1) k'))
          (fun k' => x9 (ix2 (0 : Fin 1) k')) (fun k' => x10 (ix2 (0 : Fin 1) k')) k := by
  rw [pay1_apply]
  unfold Cert.Spec.sampleOut
  have h5 : k1_pay5 (F := Ideal) x9 = x9 := shapeCast_self x9 _
  rw [h5]
  refine congrArg (fun w => Cert.Spec.normClamp Cert.Spec.c256 w _ _ k) (funext fun k' => ?_)
  rw [pay4_apply]
  refine congrArg (fun w => Cert.Spec.dense w _ _ k') (funext fun s => ?_)
  refine congrArg (fun w => Cert.Spec.normClamp Cert.Spec.c256 w _ _) ?_
  funext o
  unfold Cert.Spec.mix2
  refine Finset.sum_congr rfl fun f _ => ?_
  beta_reduce
  rw [pay2_apply, pay3_apply]

/-! ## From blocks to the array

  Point `t` of the 64-point grid handles samples `64 t … 64 t + 63`: its input blocks are those samples' rows of the
  three batched operands and the whole of each shared operand, and the block it writes back is those samples' result
  rows. The 64 blocks tile the result array. -/

section array

open Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The second pallas_call's result array, from the buffers as it finds them: entry `i` is the per-sample function
    of sample `i 0`'s rows of the three batched operands and of the shared rows, at channel `i 1`. -/
def result1 (c : Dev nD) : S4096x256.Idx → EReal := fun i =>
  Cert.Spec.sampleOut
    (fun s ch => V c main_v11 (ix3 (⟨(i 0).val, idx2_lt0 i⟩ : Fin 4096) s ch))
    (fun ch f => V c main_v9_0 (ix2 (⟨(i 0).val, idx2_lt0 i⟩ : Fin 4096) (inIdx ch f)))
    (fun f o => V c main_v9_1 (ix2 (⟨(i 0).val, idx2_lt0 i⟩ : Fin 4096) (outIdx f o)))
    (fun f => V c main_v12 (ix2 (0 : Fin 1) f)) (fun f => V c main_v13 (ix2 (0 : Fin 1) f))
    (fun o => V c main_v14 (ix2 (0 : Fin 1) o)) (fun o => V c main_v15 (ix2 (0 : Fin 1) o))
    (fun j k' => V c main_v16 (ix2 j k')) (fun k' => V c main_v17 (ix2 (0 : Fin 1) k'))
    (fun k' => V c main_v18 (ix2 (0 : Fin 1) k')) (fun k' => V c main_v19 (ix2 (0 : Fin 1) k'))
    (⟨(i 1).val, idx2_lt1 i⟩ : Fin 256)

/-- The printed index maps over the grid: the batched windows and the output move one block of 64 samples per point,
    the shared windows stay. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0 :=
  (by decide +kernel : ∀ t : Fin grid1.N, _)

/-- The sample that local row `r` of point `t`'s blocks is. -/
def rowOf (t : Fin cfg1.N) (r : Fin 64) : Fin 4096 :=
  ⟨t.val * 64 + r.val, by have := t.isLt; have hN : cfg1.N = 64 := N_1; have := r.isLt; omega⟩

/-- WHAT POINT `t` WRITES BACK is block `t` of `result1`. -/
theorem flushed1_eq (c : Dev nD) (t : Fin cfg1.N) :
    (dat1 (F := Ideal) V c).flushed 11 t = ((cfg1.win 11).blk t).view.read (Elt Ideal) (result1 V c) := by
  show (cfg1.win 11).cut (grid1.coords t) ((dat1 (F := Ideal) V c).after 11 t) = _
  rw [after1_11]
  unfold out1_11
  rw [View.canon_unit_zero hz2]
  simp only [View.ld_unit_zero (S := S64x49x256) hz3, View.ld_unit_zero (S := S64x16384) hz2,
    View.ld_unit_zero (S := S1x64) hz2, View.ld_unit_zero (S := S1x256) hz2, View.ld_unit_zero (S := S12544x256) hz2]
  obtain ⟨e00, e01, e02, e10, e11, e20, e21, e30, e31, e40, e41, e50, e51, e60, e61, e70, e71, e80, e81, e90, e91,
    ea0, ea1, eb0, eb1⟩ := idx_facts1 t
  funext j
  show k1_pay1 (F := Ideal)
      (k1_pay4 (k1_pay2 (iblk1 V c 0 t) (iblk1 V c 1 t) (iblk1 V c 3 t) (iblk1 V c 4 t)) (k1_pay3 (iblk1 V c 2 t))
        (iblk1 V c 5 t) (iblk1 V c 6 t) (iblk1 V c 7 t) (iblk1 V c 8 t))
      (k1_pay5 (iblk1 V c 9 t)) (iblk1 V c 10 t) j
    = result1 V c (((cfg1.win 11).blk t).view.emb j)
  have hj : (j : S64x256.Idx) = ix2 (⟨(j 0).val, (j 0).isLt⟩ : Fin 64) (⟨(j 1).val, (j 1).isLt⟩ : Fin 256) :=
    funext fun a => by match a with | ⟨0, _⟩ => rfl | ⟨1, _⟩ => rfl
  generalize (⟨(j 0).val, (j 0).isLt⟩ : Fin 64) = r at hj
  generalize (⟨(j 1).val, (j 1).isLt⟩ : Fin 256) = k at hj
  subst hj
  refine (body_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) r k).trans ?_
  have hn : (⟨((((cfg1.win 11).blk t).view.emb (ix2 r k)) 0).val, idx2_lt0 _⟩ : Fin 4096) = rowOf t r :=
    Fin.ext (by show win1_11.index t (0 : Fin 2) * 64 + 1 * r.val = t.val * 64 + r.val; rw [eb0]; omega)
  have hk : (⟨((((cfg1.win 11).blk t).view.emb (ix2 r k)) 1).val, idx2_lt1 _⟩ : Fin 256) = k :=
    Fin.ext (by show win1_11.index t (1 : Fin 2) * 256 + 1 * k.val = k.val; rw [eb1]; omega)
  unfold result1
  rw [hn, hk]
  have hx0 : (fun s ch => iblk1 V c 0 t (ix3 r s ch)) = fun s ch => V c main_v11 (ix3 (rowOf t r) s ch) := by
    funext s ch
    show V c main_v11 (((cfg1.win 0).blk t).view.emb (ix3 r s ch)) = _
    refine congrArg (V c main_v11) (funext fun a => Fin.ext ?_)
    match a with
    | ⟨0, _⟩ => show win1_0.index t (0 : Fin 3) * 64 + 1 * r.val = t.val * 64 + r.val; rw [e00]; omega
    | ⟨1, _⟩ => show win1_0.index t (1 : Fin 3) * 49 + 1 * s.val = s.val; rw [e01]; omega
    | ⟨2, _⟩ => show win1_0.index t (2 : Fin 3) * 256 + 1 * ch.val = ch.val; rw [e02]; omega
  have hx1 : ∀ q : Fin 16384, iblk1 V c 1 t (ix2 r q) = V c main_v9_0 (ix2 (rowOf t r) q) := by
    intro q
    show V c main_v9_0 (((cfg1.win 1).blk t).view.emb (ix2 r q)) = _
    refine congrArg (V c main_v9_0) (funext fun a => Fin.ext ?_)
    match a with
    | ⟨0, _⟩ => show win1_1.index t (0 : Fin 2) * 64 + 1 * r.val = t.val * 64 + r.val; rw [e10]; omega
    | ⟨1, _⟩ => show win1_1.index t (1 : Fin 2) * 16384 + 1 * q.val = q.val; rw [e11]; omega
  have hx2 : ∀ q : Fin 16384, iblk1 V c 2 t (ix2 r q) = V c main_v9_1 (ix2 (rowOf t r) q) := by
    intro q
    show V c main_v9_1 (((cfg1.win 2).blk t).view.emb (ix2 r q)) = _
    refine congrArg (V c main_v9_1) (funext fun a => Fin.ext ?_)
    match a with
    | ⟨0, _⟩ => show win1_2.index t (0 : Fin 2) * 64 + 1 * r.val = t.val * 64 + r.val; rw [e20]; omega
    | ⟨1, _⟩ => show win1_2.index t (1 : Fin 2) * 16384 + 1 * q.val = q.val; rw [e21]; omega
  have hx3 : ∀ (u : Fin 1) (q : Fin 64), iblk1 V c 3 t (ix2 u q) = V c main_v12 (ix2 u q) := by
    intro u q
    show V c main_v12 (((cfg1.win 3).blk t).view.emb (ix2 u q)) = _
    refine congrArg (V c main_v12) (funext fun a => Fin.ext ?_)
    match a with
    | ⟨0, _⟩ => show win1_3.index t (0 : Fin 2) * 1 + 1 * u.val = u.val; rw [e30]; omega
    | ⟨1, _⟩ => show win1_3.index t (1 : Fin 2) * 64 + 1 * q.val = q.val; rw [e31]; omega
  have hx4 : ∀ (u : Fin 1) (q : Fin 64), iblk1 V c 4 t (ix2 u q) = V c main_v13 (ix2 u q) := by
    intro u q
    show V c main_v13 (((cfg1.win 4).blk t).view.emb (ix2 u q)) = _
    refine congrArg (V c main_v13) (funext fun a => Fin.ext ?_)
    match a with
    | ⟨0, _⟩ => show win1_4.index t (0 : Fin 2) * 1 + 1 * u.val = u.val; rw [e40]; omega
    | ⟨1, _⟩ => show win1_4.index t (1 : Fin 2) * 64 + 1 * q.val = q.val; rw [e41]; omega
  have hx5 : ∀ (u : Fin 1) (q : Fin 256), iblk1 V c 5 t (ix2 u q) = V c main_v14 (ix2 u q) := by
    intro u q
    show V c main_v14 (((cfg1.win 5).blk t).view.emb (ix2 u q)) = _
    refine congrArg (V c main_v14) (funext fun a => Fin.ext ?_)
    match a with
    | ⟨0, _⟩ => show win1_5.index t (0 : Fin 2) * 1 + 1 * u.val = u.val; rw [e50]; omega
    | ⟨1, _⟩ => show win1_5.index t (1 : Fin 2) * 256 + 1 * q.val = q.val; rw [e51]; omega
  have hx6 : ∀ (u : Fin 1) (q : Fin 256), iblk1 V c 6 t (ix2 u q) = V c main_v15 (ix2 u q) := by
    intro u q
    show V c main_v15 (((cfg1.win 6).blk t).view.emb (ix2 u q)) = _
    refine congrArg (V c main_v15) (funext fun a => Fin.ext ?_)
    match a with
    | ⟨0, _⟩ => show win1_6.index t (0 : Fin 2) * 1 + 1 * u.val = u.val; rw [e60]; omega
    | ⟨1, _⟩ => show win1_6.index t (1 : Fin 2) * 256 + 1 * q.val = q.val; rw [e61]; omega
  have hx7 : ∀ (p : Fin 12544) (q : Fin 256), iblk1 V c 7 t (ix2 p q) = V c main_v16 (ix2 p q) := by
    intro p q
    show V c main_v16 (((cfg1.win 7).blk t).view.emb (ix2 p q)) = _
    refine congrArg (V c main_v16) (funext fun a => Fin.ext ?_)
    match a with
    | ⟨0, _⟩ => show win1_7.index t (0 : Fin 2) * 12544 + 1 * p.val = p.val; rw [e70]; omega
    | ⟨1, _⟩ => show win1_7.index t (1 : Fin 2) * 256 + 1 * q.val = q.val; rw [e71]; omega
  have hx8 : ∀ (u : Fin 1) (q : Fin 256), iblk1 V c 8 t (ix2 u q) = V c main_v17 (ix2 u q) := by
    intro u q
    show V c main_v17 (((cfg1.win 8).blk t).view.emb (ix2 u q)) = _
    refine congrArg (V c main_v17) (funext fun a => Fin.ext ?_)
    match a with
    | ⟨0, _⟩ => show win1_8.index t (0 : Fin 2) * 1 + 1 * u.val = u.val; rw [e80]; omega
    | ⟨1, _⟩ => show win1_8.index t (1 : Fin 2) * 256 + 1 * q.val = q.val; rw [e81]; omega
  have hx9 : ∀ (u : Fin 1) (q : Fin 256), iblk1 V c 9 t (ix2 u q) = V c main_v18 (ix2 u q) := by
    intro u q
    show V c main_v18 (((cfg1.win 9).blk t).view.emb (ix2 u q)) = _
    refine congrArg (V c main_v18) (funext fun a => Fin.ext ?_)
    match a with
    | ⟨0, _⟩ => show win1_9.index t (0 : Fin 2) * 1 + 1 * u.val = u.val; rw [e90]; omega
    | ⟨1, _⟩ => show win1_9.index t (1 : Fin 2) * 256 + 1 * q.val = q.val; rw [e91]; omega
  have hx10 : ∀ (u : Fin 1) (q : Fin 256), iblk1 V c 10 t (ix2 u q) = V c main_v19 (ix2 u q) := by
    intro u q
    show V c main_v19 (((cfg1.win 10).blk t).view.emb (ix2 u q)) = _
    refine congrArg (V c main_v19) (funext fun a => Fin.ext ?_)
    match a with
    | ⟨0, _⟩ => show win1_10.index t (0 : Fin 2) * 1 + 1 * u.val = u.val; rw [ea0]; omega
    | ⟨1, _⟩ => show win1_10.index t (1 : Fin 2) * 256 + 1 * q.val = q.val; rw [ea1]; omega
  rw [hx0]
  simp only [hx1, hx2, hx3, hx4, hx5, hx6, hx7, hx8, hx9, hx10]

/-- An index of the result array is in point `t`'s block iff its row is one of the point's 64 samples. -/
theorem mem_blk1 (t : Fin cfg1.N) (i : S4096x256.Idx) :
    i ∈ ((cfg1.win 11).blk t).view.set ↔ ∀ a : Fin 2, win1_11.index t a * S64x256.size a ≤ (i a).val
      ∧ (i a).val < win1_11.index t a * S64x256.size a + S64x256.size a := by
  show i ∈ ((View.whole main_v20).slice (win1_11.rect t)).set ↔ _
  rw [View.set_slice_whole, Rect.mem_set_unit]
  exact Iff.rfl

/-- THE ARRAY after the second pallas_call: `result1` of the buffers as it found them. -/
theorem final1 (c : Dev nD) : (dat1 (F := Ideal) V c).arrAt 11 cfg1.N = result1 V c :=
  (dat1 (F := Ideal) V c).arrAt_eq_of_cover 11 (result1 V c) (fun t _ => flushed1_eq V c t) fun i => by
    have hN : cfg1.N = 64 := N_1
    have hi0 : (i 0).val < 4096 := (i 0).isLt
    have hi1 : (i 1).val < 256 := (i 1).isLt
    refine ⟨⟨(i 0).val / 64, by omega⟩, flush1_11 _, ?_⟩
    rw [mem_blk1]
    obtain ⟨-, -, -, -, -, -, -, -, -, -, -, -, -, -, -, -, -, -, -, -, -, -, -, eb0, eb1⟩ :=
      idx_facts1 ⟨(i 0).val / 64, by omega⟩
    intro a
    match a with
    | ⟨0, _⟩ =>
      show win1_11.index _ (0 : Fin 2) * 64 ≤ (i 0).val ∧ (i 0).val < win1_11.index _ (0 : Fin 2) * 64 + 64
      rw [eb0]; dsimp only; omega
    | ⟨1, _⟩ =>
      show win1_11.index _ (1 : Fin 2) * 256 ≤ (i 1).val ∧ (i 1).val < win1_11.index _ (1 : Fin 2) * 256 + 256
      rw [eb1]; omega

end array

end Cert.KernelIdeal.Region1

end
-- ==== Proof.Region0Value.lean ====
/-
  The value of the first region: what the generator matmul leaves in its two result arrays.

  At every grid point the body loads a 512 × 256 block of the parameters, a 256 × 2048 column slice of each
  generator matrix and the matching 1 × 2048 slice of each bias at a column offset computed from the point, and stores
  the product plus the bias row. Read index by index over the extended reals, each result array is the affine map
  of the parameter rows: entry (n, j) is the contraction of row n with column j, plus the bias at j.
-/
import proofs.«139996_j24970939859163_2_alg».proof.Proof.Gen.KernelIdeal.Frame
import proofs.«139996_j24970939859163_2_alg».proof.Proof.Spec
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What the body's two stores leave, in terms of its loads -/

section Pieces
variable {F : FTy → Type} [FloatOps F]

/-- The first store's block: the payload of the parameter block, the first matrix's column slice and the first bias's slice. -/
theorem out5_eq (c : Dev nD) (i : grid0.Coords) (arg2 : Memref sig .tc .vmem S512x256 .bf16) (harg2 : arg2.IsWhole) (arg3 : Memref sig .tc .vmem S256x16384 .bf16) (harg3 : arg3.IsWhole) (arg4 : Memref sig .tc .vmem S256x16384 .bf16) (harg4 : arg4.IsWhole) (arg5 : Memref sig .tc .vmem S1x16384 .f32) (harg5 : arg5.IsWhole) (arg6 : Memref sig .tc .vmem S1x16384 .f32) (harg6 : arg6.IsWhole) (arg7 : Memref sig .tc .vmem S512x2048 .bf16) (harg7 : arg7.IsWhole) (arg8 : Memref sig .tc .vmem S512x2048 .bf16) (harg8 : arg8.IsWhole)
    (x0 : Vec F S512x256 .bf16) (x1 : Vec F S256x16384 .bf16) (x2 : Vec F S256x16384 .bf16) (x3 : Vec F S1x16384 .f32) (x4 : Vec F S1x16384 .f32) :
    out0_A_5 c i arg2 harg2 arg3 harg3 arg4 harg4 arg5 harg5 arg6 harg6 arg7 harg7 arg8 harg8 x0 x1 x2 x3 x4
      = k0_pay2 (View.ld x1 (Rect.unit (s := S256x16384) (k0_off1 i) S256x2048.size (k0_off1_inb i)))
          (View.ld x3 (Rect.unit (s := S1x16384) (k0_off2 i) S1x2048.size (k0_off2_inb i))) x0 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  rw [View.canon_unit_zero hz]
  simp only [View.readAt_eq_ld, harg2.read_unread, harg3.read_unread, harg5.read_unread, View.ld_unit_zero (S := S512x256) hz]

/-- The second store's block: the same with the second matrix and the second bias. -/
theorem out6_eq (c : Dev nD) (i : grid0.Coords) (arg2 : Memref sig .tc .vmem S512x256 .bf16) (harg2 : arg2.IsWhole) (arg3 : Memref sig .tc .vmem S256x16384 .bf16) (harg3 : arg3.IsWhole) (arg4 : Memref sig .tc .vmem S256x16384 .bf16) (harg4 : arg4.IsWhole) (arg5 : Memref sig .tc .vmem S1x16384 .f32) (harg5 : arg5.IsWhole) (arg6 : Memref sig .tc .vmem S1x16384 .f32) (harg6 : arg6.IsWhole) (arg7 : Memref sig .tc .vmem S512x2048 .bf16) (harg7 : arg7.IsWhole) (arg8 : Memref sig .tc .vmem S512x2048 .bf16) (harg8 : arg8.IsWhole)
    (x0 : Vec F S512x256 .bf16) (x1 : Vec F S256x16384 .bf16) (x2 : Vec F S256x16384 .bf16) (x3 : Vec F S1x16384 .f32) (x4 : Vec F S1x16384 .f32) :
    out0_A_6 c i arg2 harg2 arg3 harg3 arg4 harg4 arg5 harg5 arg6 harg6 arg7 harg7 arg8 harg8 x0 x1 x2 x3 x4
      = k0_pay3 (View.ld x2 (Rect.unit (s := S256x16384) (k0_off1 i) S256x2048.size (k0_off1_inb i)))
          (View.ld x4 (Rect.unit (s := S1x16384) (k0_off2 i) S1x2048.size (k0_off2_inb i))) x0 := by
  unfold out0_A_6
  rw [View.read_writes_eq_canon _ _ _ (cover0_A_6 c i arg2 harg2 arg3 harg3 arg4 harg4 arg5 harg5 arg6 harg6 arg7 harg7 arg8 harg8 x0 x1 x2 x3 x4)]
  unfold kernelRun0_A
  dsimp only
  rw [View.canon_unit_zero hz]
  simp only [View.readAt_eq_ld, harg2.read_unread, harg4.read_unread, harg6.read_unread, View.ld_unit_zero (S := S512x256) hz]

end Pieces

/-! ## The payload at an index: a contraction over 256 plus the bias -/

abbrev D := dot_S512x256_S256x2048_S512x2048_1_0_0_1_n_n

theorem lhs0 (i : S512x2048.Idx) (q : D.contr.Idx) : (D.lhsIdx i q 0).val = (i 0).val := by
  unfold DotDims.lhsIdx
  rw [dif_neg (show ¬(0 : Fin S512x256.rank) ∈ D.lhsBatch by decide), dif_pos (show (0 : Fin S512x256.rank) ∈ D.lhsNonContracting by decide)]
  rfl
theorem lhs1 (i : S512x2048.Idx) (q : D.contr.Idx) : (D.lhsIdx i q 1).val = (q ⟨0, by decide⟩).val :=
  D.lhsIdx_val_of_single rfl i q
theorem rhs0 (i : S512x2048.Idx) (q : D.contr.Idx) : (D.rhsIdx i q 0).val = (q ⟨0, by decide⟩).val :=
  D.rhsIdx_val_of_single rfl i q
theorem rhs1 (i : S512x2048.Idx) (q : D.contr.Idx) : (D.rhsIdx i q 1).val = (i 1).val := by
  unfold DotDims.rhsIdx
  rw [dif_neg (show ¬(1 : Fin S256x2048.rank) ∈ D.rhsBatch by decide), dif_pos (show (1 : Fin S256x2048.rank) ∈ D.rhsNonContracting by decide)]
  rfl

/-- The product into the zero accumulator, at (r, q): the sum over the 256 contracted coordinates. -/
theorem matmul_at (A : FVec Ideal S512x256 .bf16) (B : FVec Ideal S256x2048 .bf16) (r : Fin 512) (q : Fin 2048) :
    FloatOps.matmul D none A B (constant S512x2048 .f32 0x00000000#32) (ix2 r q) = ∑ k : Fin 256, A (ix2 r k) * B (ix2 k q) := by
  refine (Ideal.matmul_constant_zero_apply D none A B (ix2 r q)).trans ?_
  rw [← Equiv.sum_comp (ValueIdx.contrEquiv1 D 256 rfl rfl).symm]
  refine Finset.sum_congr rfl fun k _ => ?_
  have hk := ValueIdx.contrEquiv1_symm_val D 256 rfl rfl k
  refine congrArg₂ (· * ·) (congrArg A ?_) (congrArg B ?_)
  · funext a; apply Fin.ext
    match a with
    | ⟨0, _⟩ => exact lhs0 _ _
    | ⟨1, _⟩ => exact (lhs1 _ _).trans hk
  · funext a; apply Fin.ext
    match a with
    | ⟨0, _⟩ => exact (rhs0 _ _).trans hk
    | ⟨1, _⟩ => exact rhs1 _ _

theorem pay2_at (v3 : Vec Ideal S256x2048 .bf16) (v9 : Vec Ideal S1x2048 .f32) (v14 : Vec Ideal S512x256 .bf16)
    (r : Fin 512) (q : Fin 2048) :
    k0_pay2 (F := Ideal) v3 v9 v14 (ix2 r q)
      = Cert.Spec.affineEntry (fun k : Fin 256 => v14 (ix2 r k)) (fun k : Fin 256 => v3 (ix2 k q)) (v9 (ix2 (0 : Fin 1) q)) := by
  unfold k0_pay2 k0_pay1
  simp only [shapeCast_self]
  exact congrArg₂ (· + ·) (matmul_at v14 v3 r q) (broadcastTo_1b_ab_apply v9 _ r q)

theorem pay3_at (v6 : Vec Ideal S256x2048 .bf16) (v12 : Vec Ideal S1x2048 .f32) (v14 : Vec Ideal S512x256 .bf16)
    (r : Fin 512) (q : Fin 2048) :
    k0_pay3 (F := Ideal) v6 v12 v14 (ix2 r q)
      = Cert.Spec.affineEntry (fun k : Fin 256 => v14 (ix2 r k)) (fun k : Fin 256 => v6 (ix2 k q)) (v12 (ix2 (0 : Fin 1) q)) := by
  unfold k0_pay3 k0_pay1
  simp only [shapeCast_self]
  exact congrArg₂ (· + ·) (matmul_at v14 v6 r q) (broadcastTo_1b_ab_apply v12 _ r q)

/-! ## The index maps over the grid -/

section Arrays
variable (V : (c : Dev nD) → (b : Ref sig .tc) → Buf (Elt Ideal) ((c : Thread nD τ).loc b))

/-- The printed index maps and the body's column offsets, decided once over the 64 grid points: the parameter block
    moves with the row of result blocks, the matrices and biases are whole and stay, the column offset is 2048 times
    the column of result blocks, and point `t`'s result block is row `t / 8`, column `t % 8`. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ k0_off1 (grid0.coords t) 0 = 0 ∧ k0_off1 (grid0.coords t) 1 = t.val % 8 * 2048
    ∧ k0_off2 (grid0.coords t) 0 = 0 ∧ k0_off2 (grid0.coords t) 1 = t.val % 8 * 2048
    ∧ win0_5.index t (0 : Fin 2) = t.val / 8 ∧ win0_5.index t (1 : Fin 2) = t.val % 8
    ∧ win0_6.index t (0 : Fin 2) = t.val / 8 ∧ win0_6.index t (1 : Fin 2) = t.val % 8 :=
  (by decide +kernel : ∀ t : Fin grid0.N, _)

/-! ## The first result array -/

/-- The first result array as a function of the contents the region finds: the affine map of the parameter rows. -/
def G5 (c : Dev nD) : S4096x16384.Idx → EReal := fun i =>
  Cert.Spec.affineEntry (fun k : Fin 256 => V c main_v0 (ix2 (⟨(i 0).val, idx2_lt0 i⟩ : Fin 4096) k))
    (fun k : Fin 256 => V c main_v2 (ix2 k (⟨(i 1).val, idx2_lt1 i⟩ : Fin 16384)))
    (V c main_v6 (ix2 (0 : Fin 1) (⟨(i 1).val, idx2_lt1 i⟩ : Fin 16384)))

/-- What point `t` writes back is block `t` of that function: rows `512 · (t / 8) + r`, columns `2048 · (t % 8) + q`. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  unfold outsAt0
  dsimp only
  refine (congrArg ((cfg0.win 5).cut (grid0.coords t))
    (out5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t))).trans ?_
  obtain ⟨e00, e01, e10, e11, e20, e21, e30, e31, e40, e41, o10, o11, o20, o21, e50, e51, e60, e61⟩ := idx_facts t
  funext j
  obtain ⟨r, q, rfl⟩ : ∃ (r : Fin 512) (q : Fin 2048), j = ix2 r q := ⟨j 0, j 1, eq_ix2 j⟩
  have hr := r.isLt; have hq := q.isLt
  refine (pay2_at _ _ _ r q).trans ?_
  show _ = G5 V c (((cfg0.win 5).blk t).view.emb (ix2 r q))
  unfold G5
  have h0 : (fun k : Fin 256 => iblk0 V c 0 t (ix2 r k))
      = fun k : Fin 256 => V c main_v0 (ix2 (⟨((((cfg0.win 5).blk t).view.emb (ix2 r q)) 0).val, idx2_lt0 _⟩ : Fin 4096) k) := by
    funext k
    show V c main_v0 (((cfg0.win 0).blk t).view.emb (ix2 r k)) = _
    refine congrArg (V c main_v0) ?_
    funext a; apply Fin.ext
    match a with
    | ⟨0, _⟩ => show win0_0.index t (0 : Fin 2) * 512 + 1 * r.val = win0_5.index t (0 : Fin 2) * 512 + 1 * r.val; omega
    | ⟨1, _⟩ => show win0_0.index t (1 : Fin 2) * 256 + 1 * k.val = k.val; omega
  have h1 : (fun k : Fin 256 => View.ld (iblk0 V c 1 t) (Rect.unit (s := S256x16384) (k0_off1 (grid0.coords t)) S256x2048.size (k0_off1_inb (grid0.coords t))) (ix2 k q))
      = fun k : Fin 256 => V c main_v2 (ix2 k (⟨((((cfg0.win 5).blk t).view.emb (ix2 r q)) 1).val, idx2_lt1 _⟩ : Fin 16384)) := by
    funext k
    show V c main_v2 (((cfg0.win 1).blk t).view.emb ((Rect.unit (s := S256x16384) (k0_off1 (grid0.coords t)) S256x2048.size (k0_off1_inb (grid0.coords t))).idx (ix2 k q))) = _
    refine congrArg (V c main_v2) ?_
    funext a; apply Fin.ext
    match a with
    | ⟨0, _⟩ => show win0_1.index t (0 : Fin 2) * 256 + 1 * (k0_off1 (grid0.coords t) 0 + 1 * k.val) = k.val; omega
    | ⟨1, _⟩ => show win0_1.index t (1 : Fin 2) * 16384 + 1 * (k0_off1 (grid0.coords t) 1 + 1 * q.val) = win0_5.index t (1 : Fin 2) * 2048 + 1 * q.val; omega
  have h2 : View.ld (iblk0 V c 3 t) (Rect.unit (s := S1x16384) (k0_off2 (grid0.coords t)) S1x2048.size (k0_off2_inb (grid0.coords t))) (ix2 (0 : Fin 1) q)
      = V c main_v6 (ix2 (0 : Fin 1) (⟨((((cfg0.win 5).blk t).view.emb (ix2 r q)) 1).val, idx2_lt1 _⟩ : Fin 16384)) := by
    show V c main_v6 (((cfg0.win 3).blk t).view.emb ((Rect.unit (s := S1x16384) (k0_off2 (grid0.coords t)) S1x2048.size (k0_off2_inb (grid0.coords t))).idx (ix2 (0 : Fin 1) q))) = _
    refine congrArg (V c main_v6) ?_
    funext a; apply Fin.ext
    match a with
    | ⟨0, _⟩ => show win0_3.index t (0 : Fin 2) * 1 + 1 * (k0_off2 (grid0.coords t) 0 + 1 * 0) = 0; omega
    | ⟨1, _⟩ => show win0_3.index t (1 : Fin 2) * 16384 + 1 * (k0_off2 (grid0.coords t) 1 + 1 * q.val) = win0_5.index t (1 : Fin 2) * 2048 + 1 * q.val; omega
  rw [h0, h1, h2]

/-- An index of the array is in point `t`'s block iff each coordinate is in the block's range on its axis. -/
theorem mem_blk5 (t : Fin cfg0.N) (i : S4096x16384.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v9_0).slice (win0_5.rect t)).set ↔ _
  rw [View.set_slice_whole, Rect.mem_set_unit]
  exact Iff.rfl

/-- Every index of the array lies in some point's block: row `n`, column `j` in the block of point `8 · (n / 512) + j / 2048`. -/
theorem cover5 (i : S4096x16384.Idx) :
    ∃ t : Fin cfg0.N, (cfg0.win 5).flush t = true ∧ i ∈ ((cfg0.win 5).blk t).view.set := by
  have hi0 : (i 0).val < 4096 := idx2_lt0 i
  have hi1 : (i 1).val < 16384 := idx2_lt1 i
  have hN : cfg0.N = 64 := by decide
  let t : Fin cfg0.N := ⟨(i 0).val / 512 * 8 + (i 1).val / 2048, by rw [hN]; omega⟩
  have ht : t.val = (i 0).val / 512 * 8 + (i 1).val / 2048 := rfl
  obtain ⟨e00, e01, e10, e11, e20, e21, e30, e31, e40, e41, o10, o11, o20, o21, e50, e51, e60, e61⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- So after the region the first result array holds the affine map, entry by entry. -/
theorem final0_5 (c : Dev nD) : (dat0 (F := Ideal) V c).arrAt 5 cfg0.N = fun i : S4096x16384.Idx =>
    Cert.Spec.affineEntry (fun k : Fin 256 => V c main_v0 (ix2 (⟨(i 0).val, idx2_lt0 i⟩ : Fin 4096) k))
      (fun k : Fin 256 => V c main_v2 (ix2 k (⟨(i 1).val, idx2_lt1 i⟩ : Fin 16384)))
      (V c main_v6 (ix2 (0 : Fin 1) (⟨(i 1).val, idx2_lt1 i⟩ : Fin 16384))) :=
  (dat0 (F := Ideal) V c).arrAt_eq_of_cover 5 (G5 V c) (fun t _ => flushed5_eq V c t) (cover5)

/-! ## The second result array -/

/-- The second result array as a function of the contents the region finds: the affine map of the parameter rows. -/
def G6 (c : Dev nD) : S4096x16384.Idx → EReal := fun i =>
  Cert.Spec.affineEntry (fun k : Fin 256 => V c main_v0 (ix2 (⟨(i 0).val, idx2_lt0 i⟩ : Fin 4096) k))
    (fun k : Fin 256 => V c main_v4 (ix2 k (⟨(i 1).val, idx2_lt1 i⟩ : Fin 16384)))
    (V c main_v8 (ix2 (0 : Fin 1) (⟨(i 1).val, idx2_lt1 i⟩ : Fin 16384)))

/-- What point `t` writes back is block `t` of that function: rows `512 · (t / 8) + r`, columns `2048 · (t % 8) + q`. -/
theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  unfold outsAt0
  dsimp only
  refine (congrArg ((cfg0.win 6).cut (grid0.coords t))
    (out6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t))).trans ?_
  obtain ⟨e00, e01, e10, e11, e20, e21, e30, e31, e40, e41, o10, o11, o20, o21, e50, e51, e60, e61⟩ := idx_facts t
  funext j
  obtain ⟨r, q, rfl⟩ : ∃ (r : Fin 512) (q : Fin 2048), j = ix2 r q := ⟨j 0, j 1, eq_ix2 j⟩
  have hr := r.isLt; have hq := q.isLt
  refine (pay3_at _ _ _ r q).trans ?_
  show _ = G6 V c (((cfg0.win 6).blk t).view.emb (ix2 r q))
  unfold G6
  have h0 : (fun k : Fin 256 => iblk0 V c 0 t (ix2 r k))
      = fun k : Fin 256 => V c main_v0 (ix2 (⟨((((cfg0.win 6).blk t).view.emb (ix2 r q)) 0).val, idx2_lt0 _⟩ : Fin 4096) k) := by
    funext k
    show V c main_v0 (((cfg0.win 0).blk t).view.emb (ix2 r k)) = _
    refine congrArg (V c main_v0) ?_
    funext a; apply Fin.ext
    match a with
    | ⟨0, _⟩ => show win0_0.index t (0 : Fin 2) * 512 + 1 * r.val = win0_6.index t (0 : Fin 2) * 512 + 1 * r.val; omega
    | ⟨1, _⟩ => show win0_0.index t (1 : Fin 2) * 256 + 1 * k.val = k.val; omega
  have h1 : (fun k : Fin 256 => View.ld (iblk0 V c 2 t) (Rect.unit (s := S256x16384) (k0_off1 (grid0.coords t)) S256x2048.size (k0_off1_inb (grid0.coords t))) (ix2 k q))
      = fun k : Fin 256 => V c main_v4 (ix2 k (⟨((((cfg0.win 6).blk t).view.emb (ix2 r q)) 1).val, idx2_lt1 _⟩ : Fin 16384)) := by
    funext k
    show V c main_v4 (((cfg0.win 2).blk t).view.emb ((Rect.unit (s := S256x16384) (k0_off1 (grid0.coords t)) S256x2048.size (k0_off1_inb (grid0.coords t))).idx (ix2 k q))) = _
    refine congrArg (V c main_v4) ?_
    funext a; apply Fin.ext
    match a with
    | ⟨0, _⟩ => show win0_2.index t (0 : Fin 2) * 256 + 1 * (k0_off1 (grid0.coords t) 0 + 1 * k.val) = k.val; omega
    | ⟨1, _⟩ => show win0_2.index t (1 : Fin 2) * 16384 + 1 * (k0_off1 (grid0.coords t) 1 + 1 * q.val) = win0_6.index t (1 : Fin 2) * 2048 + 1 * q.val; omega
  have h2 : View.ld (iblk0 V c 4 t) (Rect.unit (s := S1x16384) (k0_off2 (grid0.coords t)) S1x2048.size (k0_off2_inb (grid0.coords t))) (ix2 (0 : Fin 1) q)
      = V c main_v8 (ix2 (0 : Fin 1) (⟨((((cfg0.win 6).blk t).view.emb (ix2 r q)) 1).val, idx2_lt1 _⟩ : Fin 16384)) := by
    show V c main_v8 (((cfg0.win 4).blk t).view.emb ((Rect.unit (s := S1x16384) (k0_off2 (grid0.coords t)) S1x2048.size (k0_off2_inb (grid0.coords t))).idx (ix2 (0 : Fin 1) q))) = _
    refine congrArg (V c main_v8) ?_
    funext a; apply Fin.ext
    match a with
    | ⟨0, _⟩ => show win0_4.index t (0 : Fin 2) * 1 + 1 * (k0_off2 (grid0.coords t) 0 + 1 * 0) = 0; omega
    | ⟨1, _⟩ => show win0_4.index t (1 : Fin 2) * 16384 + 1 * (k0_off2 (grid0.coords t) 1 + 1 * q.val) = win0_6.index t (1 : Fin 2) * 2048 + 1 * q.val; omega
  rw [h0, h1, h2]

/-- An index of the array is in point `t`'s block iff each coordinate is in the block's range on its axis. -/
theorem mem_blk6 (t : Fin cfg0.N) (i : S4096x16384.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v9_1).slice (win0_6.rect t)).set ↔ _
  rw [View.set_slice_whole, Rect.mem_set_unit]
  exact Iff.rfl

/-- Every index of the array lies in some point's block: row `n`, column `j` in the block of point `8 · (n / 512) + j / 2048`. -/
theorem cover6 (i : S4096x16384.Idx) :
    ∃ t : Fin cfg0.N, (cfg0.win 6).flush t = true ∧ i ∈ ((cfg0.win 6).blk t).view.set := by
  have hi0 : (i 0).val < 4096 := idx2_lt0 i
  have hi1 : (i 1).val < 16384 := idx2_lt1 i
  have hN : cfg0.N = 64 := by decide
  let t : Fin cfg0.N := ⟨(i 0).val / 512 * 8 + (i 1).val / 2048, by rw [hN]; omega⟩
  have ht : t.val = (i 0).val / 512 * 8 + (i 1).val / 2048 := rfl
  obtain ⟨e00, e01, e10, e11, e20, e21, e30, e31, e40, e41, o10, o11, o20, o21, e50, e51, e60, e61⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

/-- So after the region the second result array holds the affine map, entry by entry. -/
theorem final0_6 (c : Dev nD) : (dat0 (F := Ideal) V c).arrAt 6 cfg0.N = fun i : S4096x16384.Idx =>
    Cert.Spec.affineEntry (fun k : Fin 256 => V c main_v0 (ix2 (⟨(i 0).val, idx2_lt0 i⟩ : Fin 4096) k))
      (fun k : Fin 256 => V c main_v4 (ix2 k (⟨(i 1).val, idx2_lt1 i⟩ : Fin 16384)))
      (V c main_v8 (ix2 (0 : Fin 1) (⟨(i 1).val, idx2_lt1 i⟩ : Fin 16384))) :=
  (dat0 (F := Ideal) V c).arrAt_eq_of_cover 6 (G6 V c) (fun t _ => flushed6_eq V c t) (cover6)

end Arrays

end Cert.KernelIdeal.Region0

end
-- ==== Proof.HostReads.lean ====
/-
  What the two regions find in their operand arrays, in terms of the launch memory.

  Before the first region the host narrows the parameters (the identity over the extended reals), cuts the generator
  matrix into its first and last 16384 columns and the generator bias into the matching halves, each as a row. Between
  the regions it lays the input out with channels last (a reshape of the 7 × 7 map to 49 positions, then a transpose),
  turns the scale, shift and bias vectors into rows, and narrows the dense layer's weights. Each array is read here at
  an index as the argument it comes from.
-/
import proofs.«139996_j24970939859163_2_alg».proof.Proof.Gen.KernelIdeal.Frame
import proofs.«139996_j24970939859163_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

namespace Cert.KernelIdeal.HostReads

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## The arguments the second stretch reads are as launched -/

theorem W2_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W2_arg9 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_arg10 : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W2_arg11 : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## What the first region finds -/

/-- The parameters, narrowed (the identity over the extended reals). -/
theorem v0_read (n : Fin 4096) (k : Fin 256) : V1 m ρ c main_v0 (ix2 n k) = m ((c : Thread nD τ).loc main_arg0) (ix2 n k) := by
  have e : V1 m ρ c main_v0 = ((truncf (F := Ideal) .bf16 · Cert.KernelIdeal.Gen.bitsLt_bf16_f32) : (⟨S4096x256, .f32⟩ : BufTy).Contents (Elt Ideal) → (⟨S4096x256, .bf16⟩ : BufTy).Contents (Elt Ideal)) (W0 m ρ c (Proc.devRef .tc main_arg0)) := by
    show StableHlo.after hostOps0 (W0 m ρ c) (Proc.devRef .tc main_v0) = _
    after_results
    all_goals rfl
  exact congrFun e (ix2 n k)

/-- The first 16384 columns of the generator matrix. -/
theorem v2_read (k : Fin 256) (q : Fin 16384) :
    V1 m ρ c main_v2 (ix2 k q) = m ((c : Thread nD τ).loc main_arg2) (ix2 k (⟨q.val, by have := q.isLt; omega⟩ : Fin 32768)) := by
  have e : V1 m ρ c main_v2 = ((truncf (F := Ideal) .bf16 · Cert.KernelIdeal.Gen.bitsLt_bf16_f32) : (⟨S256x16384, .f32⟩ : BufTy).Contents (Elt Ideal) → (⟨S256x16384, .bf16⟩ : BufTy).Contents (Elt Ideal)) (((extractStridedSlice S256x16384 ![0, 0] · Cert.KernelIdeal.Gen.slices_S256x32768_S256x16384_0_0) : (⟨S256x32768, .f32⟩ : BufTy).Contents (Elt Ideal) → (⟨S256x16384, .f32⟩ : BufTy).Contents (Elt Ideal)) (W0 m ρ c (Proc.devRef .tc main_arg2))) := by
    show StableHlo.after hostOps0 (W0 m ρ c) (Proc.devRef .tc main_v2) = _
    after_results
    all_goals rfl
  refine (congrFun e (ix2 k q)).trans ?_
  show extractStridedSlice S256x16384 ![0, 0] (W0 m ρ c (Proc.devRef .tc main_arg2) : (⟨S256x32768, .f32⟩ : BufTy).Contents (Elt Ideal)) Cert.KernelIdeal.Gen.slices_S256x32768_S256x16384_0_0 (ix2 k q) = _
  refine (slice2_axis1_eq 0 _ _ k q).trans ?_
  refine congrArg (m ((c : Thread nD τ).loc main_arg2)) ?_
  funext a; apply Fin.ext
  match a with
  | ⟨0, _⟩ => rfl
  | ⟨1, _⟩ => show 0 + q.val = q.val; omega

/-- The last 16384 columns of the generator matrix. -/
theorem v4_read (k : Fin 256) (q : Fin 16384) :
    V1 m ρ c main_v4 (ix2 k q) = m ((c : Thread nD τ).loc main_arg2) (ix2 k (⟨16384 + q.val, by have := q.isLt; omega⟩ : Fin 32768)) := by
  have e : V1 m ρ c main_v4 = ((truncf (F := Ideal) .bf16 · Cert.KernelIdeal.Gen.bitsLt_bf16_f32) : (⟨S256x16384, .f32⟩ : BufTy).Contents (Elt Ideal) → (⟨S256x16384, .bf16⟩ : BufTy).Contents (Elt Ideal)) (((extractStridedSlice S256x16384 ![0, 16384] · Cert.KernelIdeal.Gen.slices_S256x32768_S256x16384_0_16384) : (⟨S256x32768, .f32⟩ : BufTy).Contents (Elt Ideal) → (⟨S256x16384, .f32⟩ : BufTy).Contents (Elt Ideal)) (W0 m ρ c (Proc.devRef .tc main_arg2))) := by
    show StableHlo.after hostOps0 (W0 m ρ c) (Proc.devRef .tc main_v4) = _
    after_results
    all_goals rfl
  refine (congrFun e (ix2 k q)).trans ?_
  show extractStridedSlice S256x16384 ![0, 16384] (W0 m ρ c (Proc.devRef .tc main_arg2) : (⟨S256x32768, .f32⟩ : BufTy).Contents (Elt Ideal)) Cert.KernelIdeal.Gen.slices_S256x32768_S256x16384_0_16384 (ix2 k q) = _
  exact slice2_axis1_eq 16384 _ _ k q

/-- The first 16384 entries of the generator bias, as a row. -/
theorem v6_read (u : Fin 1) (q : Fin 16384) :
    V1 m ρ c main_v6 (ix2 u q) = m ((c : Thread nD τ).loc main_arg3) (ix1 (⟨q.val, by have := q.isLt; omega⟩ : Fin 32768)) := by
  have e : V1 m ρ c main_v6 = shapeCast S1x16384 (extractStridedSlice S16384 ![0] (W0 m ρ c (Proc.devRef .tc main_arg3) : (⟨S32768, .f32⟩ : BufTy).Contents (Elt Ideal)) (by decide)) (by decide) := by
    show StableHlo.after hostOps0 (W0 m ρ c) (Proc.devRef .tc main_v6) = _
    after_results
    all_goals rfl
  refine (congrFun e (ix2 u q)).trans ?_
  refine (shapeCast_a_1a_apply _ _ u q).trans ?_
  exact extractStridedSlice_apply ![0] _ _ (ix1 q) (ix1 (⟨q.val, by have := q.isLt; omega⟩ : Fin 32768))
    (fun a => match a with | ⟨0, _⟩ => (show q.val = 0 + q.val by omega))

/-- The last 16384 entries of the generator bias, as a row. -/
theorem v8_read (u : Fin 1) (q : Fin 16384) :
    V1 m ρ c main_v8 (ix2 u q) = m ((c : Thread nD τ).loc main_arg3) (ix1 (⟨16384 + q.val, by have := q.isLt; omega⟩ : Fin 32768)) := by
  have e : V1 m ρ c main_v8 = shapeCast S1x16384 (extractStridedSlice S16384 ![16384] (W0 m ρ c (Proc.devRef .tc main_arg3) : (⟨S32768, .f32⟩ : BufTy).Contents (Elt Ideal)) (by decide)) (by decide) := by
    show StableHlo.after hostOps0 (W0 m ρ c) (Proc.devRef .tc main_v8) = _
    after_results
    all_goals rfl
  refine (congrFun e (ix2 u q)).trans ?_
  refine (shapeCast_a_1a_apply _ _ u q).trans ?_
  exact extractStridedSlice_apply ![16384] _ _ (ix1 q) (ix1 (⟨16384 + q.val, by have := q.isLt; omega⟩ : Fin 32768))
    (fun a => match a with | ⟨0, _⟩ => rfl)

/-! ## What the second region finds -/

/-- The input with channels last: position `s` of the 7 × 7 map is row `s / 7`, column `s % 7`. -/
theorem v11_read (n : Fin 4096) (s : Fin 49) (ch : Fin 256) :
    V3 m ρ c main_v11 (ix3 n s ch) = m ((c : Thread nD τ).loc main_arg1) (ix4 n ch (Cert.Spec.posRow s) (Cert.Spec.posCol s)) := by
  have e : V3 m ρ c main_v11 = transpose S4096x49x256 [0, 2, 1]
      (shapeCast S4096x256x49 (W2 m ρ c (Proc.devRef .tc main_arg1) : (⟨S4096x256x7x7, .f32⟩ : BufTy).Contents (Elt Ideal)) (by decide)) (by decide) := by
    show StableHlo.after hostOps1 (W2 m ρ c) (Proc.devRef .tc main_v11) = _
    after_results
    all_goals rfl
  refine (congrFun e (ix3 n s ch)).trans ?_
  refine (transpose_ix3_021_apply _ _ n s ch).trans ?_
  have hn := n.isLt; have hs := s.isLt; have hc := ch.isLt
  refine (shapeCast_apply _ _ (ix3 n ch s) (ix4 n ch (Cert.Spec.posRow s) (Cert.Spec.posCol s)) ?_).trans ?_
  · rw [Shape.rowMajor_val_four, Shape.rowMajor_val_three]
    show ((n.val * 256 + ch.val) * 7 + s.val / 7) * 7 + s.val % 7 = (n.val * 256 + ch.val) * 49 + s.val
    omega
  · rw [W2_arg1]

theorem v12_read (u : Fin 1) (f : Fin 64) : V3 m ρ c main_v12 (ix2 u f) = m ((c : Thread nD τ).loc main_arg4) (ix1 f) := by
  have e : V3 m ρ c main_v12 = shapeCast S1x64 (W2 m ρ c (Proc.devRef .tc main_arg4) : (⟨S64, .f32⟩ : BufTy).Contents (Elt Ideal)) (by decide) := by
    show StableHlo.after hostOps1 (W2 m ρ c) (Proc.devRef .tc main_v12) = _
    after_results
    all_goals rfl
  refine (congrFun e (ix2 u f)).trans ?_
  refine (shapeCast_a_1a_apply _ _ u f).trans ?_
  rw [W2_arg4]

theorem v13_read (u : Fin 1) (f : Fin 64) : V3 m ρ c main_v13 (ix2 u f) = m ((c : Thread nD τ).loc main_arg5) (ix1 f) := by
  have e : V3 m ρ c main_v13 = shapeCast S1x64 (W2 m ρ c (Proc.devRef .tc main_arg5) : (⟨S64, .f32⟩ : BufTy).Contents (Elt Ideal)) (by decide) := by
    show StableHlo.after hostOps1 (W2 m ρ c) (Proc.devRef .tc main_v13) = _
    after_results
    all_goals rfl
  refine (congrFun e (ix2 u f)).trans ?_
  refine (shapeCast_a_1a_apply _ _ u f).trans ?_
  rw [W2_arg5]

theorem v14_read (u : Fin 1) (f : Fin 256) : V3 m ρ c main_v14 (ix2 u f) = m ((c : Thread nD τ).loc main_arg6) (ix1 f) := by
  have e : V3 m ρ c main_v14 = shapeCast S1x256 (W2 m ρ c (Proc.devRef .tc main_arg6) : (⟨S256, .f32⟩ : BufTy).Contents (Elt Ideal)) (by decide) := by
    show StableHlo.after hostOps1 (W2 m ρ c) (Proc.devRef .tc main_v14) = _
    after_results
    all_goals rfl
  refine (congrFun e (ix2 u f)).trans ?_
  refine (shapeCast_a_1a_apply _ _ u f).trans ?_
  rw [W2_arg6]

theorem v15_read (u : Fin 1) (f : Fin 256) : V3 m ρ c main_v15 (ix2 u f) = m ((c : Thread nD τ).loc main_arg7) (ix1 f) := by
  have e : V3 m ρ c main_v15 = shapeCast S1x256 (W2 m ρ c (Proc.devRef .tc main_arg7) : (⟨S256, .f32⟩ : BufTy).Contents (Elt Ideal)) (by decide) := by
    show StableHlo.after hostOps1 (W2 m ρ c) (Proc.devRef .tc main_v15) = _
    after_results
    all_goals rfl
  refine (congrFun e (ix2 u f)).trans ?_
  refine (shapeCast_a_1a_apply _ _ u f).trans ?_
  rw [W2_arg7]

theorem v17_read (u : Fin 1) (f : Fin 256) : V3 m ρ c main_v17 (ix2 u f) = m ((c : Thread nD τ).loc main_arg9) (ix1 f) := by
  have e : V3 m ρ c main_v17 = shapeCast S1x256 (W2 m ρ c (Proc.devRef .tc main_arg9) : (⟨S256, .f32⟩ : BufTy).Contents (Elt Ideal)) (by decide) := by
    show StableHlo.after hostOps1 (W2 m ρ c) (Proc.devRef .tc main_v17) = _
    after_results
    all_goals rfl
  refine (congrFun e (ix2 u f)).trans ?_
  refine (shapeCast_a_1a_apply _ _ u f).trans ?_
  rw [W2_arg9]

theorem v18_read (u : Fin 1) (f : Fin 256) : V3 m ρ c main_v18 (ix2 u f) = m ((c : Thread nD τ).loc main_arg10) (ix1 f) := by
  have e : V3 m ρ c main_v18 = shapeCast S1x256 (W2 m ρ c (Proc.devRef .tc main_arg10) : (⟨S256, .f32⟩ : BufTy).Contents (Elt Ideal)) (by decide) := by
    show StableHlo.after hostOps1 (W2 m ρ c) (Proc.devRef .tc main_v18) = _
    after_results
    all_goals rfl
  refine (congrFun e (ix2 u f)).trans ?_
  refine (shapeCast_a_1a_apply _ _ u f).trans ?_
  rw [W2_arg10]

theorem v19_read (u : Fin 1) (f : Fin 256) : V3 m ρ c main_v19 (ix2 u f) = m ((c : Thread nD τ).loc main_arg11) (ix1 f) := by
  have e : V3 m ρ c main_v19 = shapeCast S1x256 (W2 m ρ c (Proc.devRef .tc main_arg11) : (⟨S256, .f32⟩ : BufTy).Contents (Elt Ideal)) (by decide) := by
    show StableHlo.after hostOps1 (W2 m ρ c) (Proc.devRef .tc main_v19) = _
    after_results
    all_goals rfl
  refine (congrFun e (ix2 u f)).trans ?_
  refine (shapeCast_a_1a_apply _ _ u f).trans ?_
  rw [W2_arg11]

/-- The dense layer's weights, narrowed (the identity over the extended reals). -/
theorem v16_read (j : Fin 12544) (k : Fin 256) : V3 m ρ c main_v16 (ix2 j k) = m ((c : Thread nD τ).loc main_arg8) (ix2 j k) := by
  have e : V3 m ρ c main_v16 = ((truncf (F := Ideal) .bf16 · Cert.KernelIdeal.Gen.bitsLt_bf16_f32) : (⟨S12544x256, .f32⟩ : BufTy).Contents (Elt Ideal) → (⟨S12544x256, .bf16⟩ : BufTy).Contents (Elt Ideal)) (W2 m ρ c (Proc.devRef .tc main_arg8)) := by
    show StableHlo.after hostOps1 (W2 m ρ c) (Proc.devRef .tc main_v16) = _
    after_results
    all_goals rfl
  refine (congrFun e (ix2 j k)).trans ?_
  show (W2 m ρ c (Proc.devRef .tc main_arg8) : (⟨S12544x256, .f32⟩ : BufTy).Contents (Elt Ideal)) (ix2 j k) = _
  rw [W2_arg8]

/-- The first region's two result arrays reach the second region as the first region leaves them. -/
theorem v9_0_read : V3 m ρ c main_v9_0 = (dat0 (F := Ideal) (V1 m ρ) c).arrAt 5 cfg0.N := by
  refine Eq.trans ?_ (W2_arr m ρ c 5)
  show StableHlo.after hostOps1 (W2 m ρ c) (Proc.devRef .tc main_v9_0) = _
  after_results
  all_goals rfl

theorem v9_1_read : V3 m ρ c main_v9_1 = (dat0 (F := Ideal) (V1 m ρ) c).arrAt 6 cfg0.N := by
  refine Eq.trans ?_ (W2_arr m ρ c 6)
  show StableHlo.after hostOps1 (W2 m ρ c) (Proc.devRef .tc main_v9_1) = _
  after_results
  all_goals rfl

end Cert.KernelIdeal.HostReads

end
-- ==== Proof.KernelRun.lean ====
/-
  The idealized kernel's run with its result named. @main is four segments — host operations, the first pallas_call, host
  operations, the second pallas_call — and every weakly fair execution runs them in order from the launch memory: the
  buffer contents at each boundary are a fold (`W0` … `W4` of the frame module), so at the end every unscoped buffer
  holds `W4` at that buffer. Read at the result buffer this names the result; read at an argument it gives the argument
  back, since no segment writes one.
-/
import proofs.«139996_j24970939859163_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the twelve argument arrays as launched. -/
theorem run_named : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.ValueRun

end
-- ==== Proof.KernelValue.lean ====
/-
  The idealized kernel's result is the specification's function of the twelve arguments.

  The second pallas_call finds, in its operand buffers: the input with its 7 × 7 map flattened position-major and the
  channels moved last; the two weight arrays the first pallas_call generated — sample `n`'s row is the affine image of
  its parameter row, columns `0 … 16383` of the generator matrix and bias for the first array and columns
  `16384 … 32767` for the second —; and the scale, shift, dense-layer and bias arguments as single rows. Its result
  array (`Region1.result1`) is the per-sample function of exactly these data, which is `Cert.Spec.G` of the arguments.
-/
import proofs.«139996_j24970939859163_2_alg».proof.Proof.Region1Body
import proofs.«139996_j24970939859163_2_alg».proof.Proof.Region0Value
import proofs.«139996_j24970939859163_2_alg».proof.Proof.HostReads
import proofs.«139996_j24970939859163_2_alg».proof.Proof.KernelRun

set_option maxRecDepth 16384

noncomputable section

namespace Cert.KernelIdeal.ValueG

open Cert.KernelIdeal Cert.KernelIdeal.Gen Idealize.ShloMosaic Idealize.ShloMosaic.ValueIdx
open Idealize.ShloMosaic.TcCoe Idealize.SL.Sem
open Cert.KernelIdeal.Region1 Cert.KernelIdeal.Region0 Cert.KernelIdeal.HostReads

variable (m : (ℓ : Loc nD τ sig) → Buf (Elt Ideal) ℓ) (ρ : Dev nD → PrngReg) (c : Dev nD)

/-- The first generated weight array, as the second pallas_call finds it: sample `n`'s entry `q` is entry `q` of its
    generated parameter row. -/
theorem pin_read (n : Fin 4096) (q : Fin 16384) :
    V3 m ρ c main_v9_0 (ix2 n q)
      = Cert.Spec.genEntry (m ((c.tc : Thread nD τ).loc main_arg0)) (m ((c.tc : Thread nD τ).loc main_arg2)) (m ((c.tc : Thread nD τ).loc main_arg3)) n (⟨q.val, by have := q.isLt; omega⟩ : Fin 32768) := by
  rw [v9_0_read, final0_5]
  show Cert.Spec.affineEntry (fun k : Fin 256 => V1 m ρ c main_v0 (ix2 n k)) (fun k : Fin 256 => V1 m ρ c main_v2 (ix2 k q))
      (V1 m ρ c main_v6 (ix2 (0 : Fin 1) q)) = _
  unfold Cert.Spec.genEntry
  exact congr (congr (congrArg Cert.Spec.affineEntry (funext fun k => v0_read m ρ c n k)) (funext fun k => v2_read m ρ c k q))
    (v6_read m ρ c 0 q)

/-- The second generated weight array: sample `n`'s entry `q` is entry `16384 + q` of its generated parameter row. -/
theorem pout_read (n : Fin 4096) (q : Fin 16384) :
    V3 m ρ c main_v9_1 (ix2 n q)
      = Cert.Spec.genEntry (m ((c.tc : Thread nD τ).loc main_arg0)) (m ((c.tc : Thread nD τ).loc main_arg2)) (m ((c.tc : Thread nD τ).loc main_arg3)) n (⟨16384 + q.val, by have := q.isLt; omega⟩ : Fin 32768) := by
  rw [v9_1_read, final0_6]
  show Cert.Spec.affineEntry (fun k : Fin 256 => V1 m ρ c main_v0 (ix2 n k)) (fun k : Fin 256 => V1 m ρ c main_v4 (ix2 k q))
      (V1 m ρ c main_v8 (ix2 (0 : Fin 1) q)) = _
  unfold Cert.Spec.genEntry
  exact congr (congr (congrArg Cert.Spec.affineEntry (funext fun k => v0_read m ρ c n k)) (funext fun k => v4_read m ρ c k q))
    (v8_read m ρ c 0 q)

/-- The second pallas_call's result array is the specification's function of the arguments. -/
theorem result1_eq_G :
    result1 (V3 m ρ) c = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  unfold result1 Cert.Spec.G Cert.Spec.outAt
  generalize (⟨(i 0).val, idx2_lt0 i⟩ : Fin 4096) = n
  generalize (⟨(i 1).val, idx2_lt1 i⟩ : Fin 256) = k
  have h0 : (fun s ch => V3 m ρ c main_v11 (ix3 n s ch)) = Cert.Spec.sampleX (m ((c.tc : Thread nD τ).loc main_arg1)) n :=
    funext fun s => funext fun ch => v11_read m ρ c n s ch
  have h1 : (fun ch f => V3 m ρ c main_v9_0 (ix2 n (inIdx ch f)))
      = fun ch f => Cert.Spec.genEntry (m ((c.tc : Thread nD τ).loc main_arg0)) (m ((c.tc : Thread nD τ).loc main_arg2)) (m ((c.tc : Thread nD τ).loc main_arg3)) n (Cert.Spec.inCol ch f) :=
    funext fun ch => funext fun f => (pin_read m ρ c n (inIdx ch f)).trans
      (congrArg (Cert.Spec.genEntry (m ((c.tc : Thread nD τ).loc main_arg0)) (m ((c.tc : Thread nD τ).loc main_arg2)) (m ((c.tc : Thread nD τ).loc main_arg3)) n) (Fin.ext rfl))
  have h2 : (fun f o => V3 m ρ c main_v9_1 (ix2 n (outIdx f o)))
      = fun f o => Cert.Spec.genEntry (m ((c.tc : Thread nD τ).loc main_arg0)) (m ((c.tc : Thread nD τ).loc main_arg2)) (m ((c.tc : Thread nD τ).loc main_arg3)) n (Cert.Spec.outCol f o) :=
    funext fun f => funext fun o => (pout_read m ρ c n (outIdx f o)).trans
      (congrArg (Cert.Spec.genEntry (m ((c.tc : Thread nD τ).loc main_arg0)) (m ((c.tc : Thread nD τ).loc main_arg2)) (m ((c.tc : Thread nD τ).loc main_arg3)) n) (Fin.ext rfl))
  have h3 : (fun f => V3 m ρ c main_v12 (ix2 (0 : Fin 1) f)) = fun f => (m ((c.tc : Thread nD τ).loc main_arg4)) (ix1 f) := funext fun f => v12_read m ρ c 0 f
  have h4 : (fun f => V3 m ρ c main_v13 (ix2 (0 : Fin 1) f)) = fun f => (m ((c.tc : Thread nD τ).loc main_arg5)) (ix1 f) := funext fun f => v13_read m ρ c 0 f
  have h5 : (fun o => V3 m ρ c main_v14 (ix2 (0 : Fin 1) o)) = fun o => (m ((c.tc : Thread nD τ).loc main_arg6)) (ix1 o) := funext fun o => v14_read m ρ c 0 o
  have h6 : (fun o => V3 m ρ c main_v15 (ix2 (0 : Fin 1) o)) = fun o => (m ((c.tc : Thread nD τ).loc main_arg7)) (ix1 o) := funext fun o => v15_read m ρ c 0 o
  have h7 : (fun j k' => V3 m ρ c main_v16 (ix2 j k')) = fun j k' => (m ((c.tc : Thread nD τ).loc main_arg8)) (ix2 j k') :=
    funext fun j => funext fun k' => v16_read m ρ c j k'
  have h8 : (fun k' => V3 m ρ c main_v17 (ix2 (0 : Fin 1) k')) = fun k' => (m ((c.tc : Thread nD τ).loc main_arg9)) (ix1 k') := funext fun k' => v17_read m ρ c 0 k'
  have h9 : (fun k' => V3 m ρ c main_v18 (ix2 (0 : Fin 1) k')) = fun k' => (m ((c.tc : Thread nD τ).loc main_arg10)) (ix1 k') := funext fun k' => v18_read m ρ c 0 k'
  have h10 : (fun k' => V3 m ρ c main_v19 (ix2 (0 : Fin 1) k')) = fun k' => (m ((c.tc : Thread nD τ).loc main_arg11)) (ix1 k') := funext fun k' => v19_read m ρ c 0 k'
  rw [h0, h1, h2, h3, h4, h5, h6, h7, h8, h9, h10]

/-- The result buffer at the end of the run is the specification's function of the arguments. -/
theorem result_eq_G :
    W4 m ρ c (Proc.devRef .tc main_v20) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  ((W4_arr m ρ c 11).trans (final1 (V3 m ρ) c)).trans (result1_eq_G m ρ c)

end Cert.KernelIdeal.ValueG

end
-- ==== Proof.RefIsSpec.lean ====
/-
  The reference program's value, read index by index, is the specification function.

  Each stage reads one group of the reference's operations at explicit coordinates and identifies the result with the
  corresponding piece of the specification: the affine map that generates a sample's weights, its two slices, the
  sample's input with channels last, the first per-position product, the three row normalisations with their clamps,
  the second product, and the dense layer on the flattened activations.
-/
import proofs.«139996_j24970939859163_2_alg».proof.Proof.RefReadPatched
import proofs.«139996_j24970939859163_2_alg».proof.Proof.Spec
import Idealize.ShloMosaic.Lib.ValueIdx
import Idealize.ShloMosaic.Lib.Pipeline.Value
import Idealize.ShloMosaic.PureOps.Ideal.Laws

noncomputable section

namespace Cert.RefSpec

open Cert.ReferenceIdeal Cert.ReferenceIdeal.Gen Cert.ReferenceIdeal.Read Cert.Spec
open Idealize.ShloMosaic Idealize.ShloMosaic.TcCoe Idealize.SL.Sem Idealize.ShloMosaic.StableHlo Idealize.ShloMosaic.ValueIdx

variable (x0 : (⟨S4096x256, .f32⟩ : BufTy).Contents (Elt Ideal)) (x1 : (⟨S4096x256x7x7, .f32⟩ : BufTy).Contents (Elt Ideal))
  (x2 : (⟨S256x32768, .f32⟩ : BufTy).Contents (Elt Ideal)) (x3 : (⟨S32768, .f32⟩ : BufTy).Contents (Elt Ideal))
  (x4 x5 : (⟨S64, .f32⟩ : BufTy).Contents (Elt Ideal)) (x6 x7 : (⟨S256, .f32⟩ : BufTy).Contents (Elt Ideal))
  (x8 : (⟨S12544x256, .f32⟩ : BufTy).Contents (Elt Ideal)) (x9 x10 x11 : (⟨S256, .f32⟩ : BufTy).Contents (Elt Ideal))

/-! ## The specification's intermediate activations of sample `n` -/

/-- After the first product, normalisation and clamp: 49 positions of 64 features. -/
abbrev act1 (n : Fin 4096) : Fin 49 → Fin 64 → EReal := fun s =>
  normClamp c64 (mix1 (sampleX x1 n) (fun c f => genEntry x0 x2 x3 n (inCol c f)) s) (fun f => x4 (ix1 f)) (fun f => x5 (ix1 f))

/-- After the second product, normalisation and clamp: 49 positions of 256 channels. -/
abbrev act2 (n : Fin 4096) : Fin 49 → Fin 256 → EReal := fun s =>
  normClamp c256 (mix2 (act1 x0 x1 x2 x3 x4 x5 n) (fun f o => genEntry x0 x2 x3 n (outCol f o)) s)
    (fun o => x6 (ix1 o)) (fun o => x7 (ix1 o))

/-- After the dense layer on the flattened activations: 256 channels. -/
abbrev act3 (n : Fin 4096) : Fin 256 → EReal :=
  dense (act2 x0 x1 x2 x3 x4 x5 x6 x7 n) (fun j k => x8 (ix2 j k)) (fun k => x9 (ix1 k))

/-! ## The generated parameter row and its two slices -/

/-- Entry `(n, j)` of the affine map: the contraction of the parameter row with column `j`, plus the bias at `j`. -/
theorem v5_at (n : Fin 4096) (j : Fin 32768) :
    val_main_v5 (F := Ideal) x0 x2 x3 (ix2 n j) = genEntry x0 x2 x3 n j := by
  rw [val_main_v5_apply, val_main_v2_apply, val_main_v4_apply, val_main_v3_apply]
  unfold genEntry affineEntry
  rw [Ideal.addf_def]
  refine congrArg₂ (· + ·) (Finset.sum_congr rfl fun k _ => ?_) ?_
  · refine congrArg₂ (· * ·) (congrArg x0 ?_) (congrArg x2 ?_)
    · funext a; match a with | ⟨0, _⟩ => rfl | ⟨1, _⟩ => rfl
    · funext a; match a with | ⟨0, _⟩ => rfl | ⟨1, _⟩ => rfl
  · refine congrArg x3 ?_
    funext a; match a with | ⟨0, _⟩ => rfl

/-- The first slice, reshaped: entry `(c, f)` of sample `n`'s first matrix is column `c · 64 + f` of its row. -/
theorem v7_at (n : Fin 4096) (c : Fin 256) (f : Fin 64) :
    val_main_v7 (F := Ideal) x0 x2 x3 (ix3 n c f) = genEntry x0 x2 x3 n (inCol c f) := by
  rw [val_main_v7_apply, val_main_v6_apply, ← v5_at]
  refine congrArg (val_main_v5 (F := Ideal) x0 x2 x3) ?_
  have hn := n.isLt; have hc := c.isLt; have hf := f.isLt
  funext a; apply Fin.ext
  match a with
  | ⟨0, _⟩ => show ((n.val * 256 + c.val) * 64 + f.val) / 16384 = n.val; omega
  | ⟨1, _⟩ => show ((n.val * 256 + c.val) * 64 + f.val) % 16384 = c.val * 64 + f.val; omega

/-- The second slice, reshaped: entry `(f, o)` of sample `n`'s second matrix is column `16384 + f · 256 + o`. -/
theorem v9_at (n : Fin 4096) (f : Fin 64) (o : Fin 256) :
    val_main_v9 (F := Ideal) x0 x2 x3 (ix3 n f o) = genEntry x0 x2 x3 n (outCol f o) := by
  rw [val_main_v9_apply, val_main_v8_apply, ← v5_at]
  refine congrArg (val_main_v5 (F := Ideal) x0 x2 x3) ?_
  have hn := n.isLt; have hf := f.isLt; have ho := o.isLt
  funext a; apply Fin.ext
  match a with
  | ⟨0, _⟩ => show ((n.val * 64 + f.val) * 256 + o.val) / 16384 = n.val; omega
  | ⟨1, _⟩ => show 16384 + ((n.val * 64 + f.val) * 256 + o.val) % 16384 = 16384 + (f.val * 256 + o.val); omega

/-! ## The sample's input, channels last -/

/-- Position `s`, channel `c` of sample `n` is the input at `(n, c, s / 7, s % 7)`. -/
theorem v1_at (n : Fin 4096) (s : Fin 49) (c : Fin 256) :
    val_main_v1 (F := Ideal) x1 (ix3 n s c) = sampleX x1 n s c := by
  rw [val_main_v1_apply, val_main_v0_apply]
  unfold sampleX
  refine congrArg x1 ?_
  have hn := n.isLt; have hs := s.isLt; have hc := c.isLt
  funext a; apply Fin.ext
  match a with
  | ⟨0, _⟩ => show ((n.val * 256 + c.val) * 49 + s.val) / 12544 = n.val; omega
  | ⟨1, _⟩ => show ((n.val * 256 + c.val) * 49 + s.val) / 49 % 256 = c.val; omega
  | ⟨2, _⟩ => show ((n.val * 256 + c.val) * 49 + s.val) / 7 % 7 = s.val / 7; omega
  | ⟨3, _⟩ => show ((n.val * 256 + c.val) * 49 + s.val) % 7 = s.val % 7; omega

/-! ## The first per-position product -/

theorem v10_at (n : Fin 4096) (s : Fin 49) (f : Fin 64) :
    val_main_v10 (F := Ideal) x0 x1 x2 x3 (ix3 n s f)
      = mix1 (sampleX x1 n) (fun c f' => genEntry x0 x2 x3 n (inCol c f')) s f := by
  rw [val_main_v10_apply]
  unfold mix1
  refine Finset.sum_congr rfl fun k _ => ?_
  have el : lidx_main_v10 (ix3 n s f) k = ix3 n s k := by
    funext a; match a with | ⟨0, _⟩ => rfl | ⟨1, _⟩ => rfl | ⟨2, _⟩ => rfl
  have er : ridx_main_v10 (ix3 n s f) k = ix3 n k f := by
    funext a; match a with | ⟨0, _⟩ => rfl | ⟨1, _⟩ => rfl | ⟨2, _⟩ => rfl
  rw [el, er, v1_at, v7_at]

/-! ## The first normalisation (rows of 64 features) -/

/-- The row's mean: the sum of the row (the reduction starts from zero) divided by the row's length. -/
theorem v14_at (n : Fin 4096) (s : Fin 49) :
    val_main_v14 (F := Ideal) x0 x1 x2 x3 (ix3 n s (0 : Fin 1)) = rowMean c64 (fun k => val_main_v10 (F := Ideal) x0 x1 x2 x3 (ix3 n s k)) := by
  rw [val_main_v14_apply, val_main_v12_apply, val_main_v13_apply, val_main_cst_0_apply,
    val_main_v11_apply, val_main_cst_apply]
  simp only [Ideal.hostDivf_def, Ideal.ofBits_def, Ideal.ofBits_zero_f32, zero_add]
  unfold rowMean
  refine congrArg (fun t => Ideal.div t _) (Finset.sum_congr rfl fun k _ => congrArg (val_main_v10 (F := Ideal) x0 x1 x2 x3) ?_)
  funext a; match a with | ⟨0, _⟩ => rfl | ⟨1, _⟩ => rfl | ⟨2, _⟩ => rfl

/-- The row's variance: the sum of the squared deviations from the mean, divided by the row's length. -/
theorem v21_at (n : Fin 4096) (s : Fin 49) :
    val_main_v21 (F := Ideal) x0 x1 x2 x3 (ix3 n s (0 : Fin 1)) = rowVar c64 (fun k => val_main_v10 (F := Ideal) x0 x1 x2 x3 (ix3 n s k)) := by
  rw [val_main_v21_apply, val_main_v19_apply, val_main_v20_apply, val_main_cst_2_apply,
    val_main_v18_apply, val_main_cst_1_apply]
  simp only [Ideal.hostDivf_def, Ideal.ofBits_def, Ideal.ofBits_zero_f32, zero_add]
  unfold rowVar
  refine congrArg (fun t => Ideal.div t _) (Finset.sum_congr rfl fun k _ => ?_)
  have e : idx_main_v18 (idx_main_v19 (ix3 n s (0 : Fin 1))) k = ix3 n s k := by
    funext a; match a with | ⟨0, _⟩ => rfl | ⟨1, _⟩ => rfl | ⟨2, _⟩ => rfl
  have e' : idx_main_v15 (ix3 n s k) = ix3 n s (0 : Fin 1) := by
    funext a; match a with | ⟨0, _⟩ => rfl | ⟨1, _⟩ => rfl | ⟨2, _⟩ => rfl
  rw [e, val_main_v17_apply, val_main_v16_apply, val_main_v15_apply, e', v14_at]
  rfl

/-- The normalised, scaled, shifted and clamped row, in terms of the row it normalises. -/
theorem v35_row (n : Fin 4096) (s : Fin 49) (f : Fin 64) :
    val_main_v35 (F := Ideal) x0 x1 x2 x3 x4 x5 (ix3 n s f)
      = normClamp c64 (fun k => val_main_v10 (F := Ideal) x0 x1 x2 x3 (ix3 n s k)) (fun k => x4 (ix1 k)) (fun k => x5 (ix1 k)) f := by
  rw [val_main_v35_apply, val_main_call0_v0_apply, val_main_call0_cst_apply, val_main_v34_apply,
    val_main_v31_apply, val_main_v33_apply, val_main_v32_apply, val_main_v28_apply,
    val_main_v30_apply, val_main_v29_apply, val_main_v23_apply, val_main_v27_apply,
    val_main_v26_apply, val_main_v25_apply, val_main_v24_apply, val_main_cst_3_apply,
    val_main_v22_apply]
  have e1 : idx_main_v22 (ix3 n s f) = ix3 n s (0 : Fin 1) := by
    funext a; match a with | ⟨0, _⟩ => rfl | ⟨1, _⟩ => rfl | ⟨2, _⟩ => rfl
  have e2 : idx_main_v27 (ix3 n s f) = ix3 n s (0 : Fin 1) := by
    funext a; match a with | ⟨0, _⟩ => rfl | ⟨1, _⟩ => rfl | ⟨2, _⟩ => rfl
  have e3 : idx_main_v29 (idx_main_v30 (ix3 n s f)) = ix1 f := by
    funext a; match a with | ⟨0, _⟩ => rfl
  have e4 : idx_main_v32 (idx_main_v33 (ix3 n s f)) = ix1 f := by
    funext a; match a with | ⟨0, _⟩ => rfl
  rw [e1, e2, e3, e4, v14_at, v21_at]
  rfl

/-- The first activations are the specification's. -/
theorem v35_at (n : Fin 4096) (s : Fin 49) (f : Fin 64) :
    val_main_v35 (F := Ideal) x0 x1 x2 x3 x4 x5 (ix3 n s f) = act1 x0 x1 x2 x3 x4 x5 n s f := by
  rw [v35_row]
  have hv : (fun k => val_main_v10 (F := Ideal) x0 x1 x2 x3 (ix3 n s k))
      = mix1 (sampleX x1 n) (fun c f' => genEntry x0 x2 x3 n (inCol c f')) s :=
    funext fun k => v10_at x0 x1 x2 x3 n s k
  rw [hv]

/-! ## The second per-position product -/

theorem v36_at (n : Fin 4096) (s : Fin 49) (o : Fin 256) :
    val_main_v36 (F := Ideal) x0 x1 x2 x3 x4 x5 (ix3 n s o)
      = mix2 (act1 x0 x1 x2 x3 x4 x5 n) (fun f o' => genEntry x0 x2 x3 n (outCol f o')) s o := by
  rw [val_main_v36_apply]
  unfold mix2
  refine Finset.sum_congr rfl fun k _ => ?_
  have el : lidx_main_v36 (ix3 n s o) k = ix3 n s k := by
    funext a; match a with | ⟨0, _⟩ => rfl | ⟨1, _⟩ => rfl | ⟨2, _⟩ => rfl
  have er : ridx_main_v36 (ix3 n s o) k = ix3 n k o := by
    funext a; match a with | ⟨0, _⟩ => rfl | ⟨1, _⟩ => rfl | ⟨2, _⟩ => rfl
  rw [el, er, v35_at, v9_at]

/-! ## The second normalisation (rows of 256 channels) -/

/-- The row's mean: the sum of the row (the reduction starts from zero) divided by the row's length. -/
theorem v40_at (n : Fin 4096) (s : Fin 49) :
    val_main_v40 (F := Ideal) x0 x1 x2 x3 x4 x5 (ix3 n s (0 : Fin 1)) = rowMean c256 (fun k => val_main_v36 (F := Ideal) x0 x1 x2 x3 x4 x5 (ix3 n s k)) := by
  rw [val_main_v40_apply, val_main_v38_apply, val_main_v39_apply, val_main_cst_5_apply,
    val_main_v37_apply, val_main_cst_4_apply]
  simp only [Ideal.hostDivf_def, Ideal.ofBits_def, Ideal.ofBits_zero_f32, zero_add]
  unfold rowMean
  refine congrArg (fun t => Ideal.div t _) (Finset.sum_congr rfl fun k _ => congrArg (val_main_v36 (F := Ideal) x0 x1 x2 x3 x4 x5) ?_)
  funext a; match a with | ⟨0, _⟩ => rfl | ⟨1, _⟩ => rfl | ⟨2, _⟩ => rfl

/-- The row's variance: the sum of the squared deviations from the mean, divided by the row's length. -/
theorem v47_at (n : Fin 4096) (s : Fin 49) :
    val_main_v47 (F := Ideal) x0 x1 x2 x3 x4 x5 (ix3 n s (0 : Fin 1)) = rowVar c256 (fun k => val_main_v36 (F := Ideal) x0 x1 x2 x3 x4 x5 (ix3 n s k)) := by
  rw [val_main_v47_apply, val_main_v45_apply, val_main_v46_apply, val_main_cst_7_apply,
    val_main_v44_apply, val_main_cst_6_apply]
  simp only [Ideal.hostDivf_def, Ideal.ofBits_def, Ideal.ofBits_zero_f32, zero_add]
  unfold rowVar
  refine congrArg (fun t => Ideal.div t _) (Finset.sum_congr rfl fun k _ => ?_)
  have e : idx_main_v44 (idx_main_v45 (ix3 n s (0 : Fin 1))) k = ix3 n s k := by
    funext a; match a with | ⟨0, _⟩ => rfl | ⟨1, _⟩ => rfl | ⟨2, _⟩ => rfl
  have e' : idx_main_v41 (ix3 n s k) = ix3 n s (0 : Fin 1) := by
    funext a; match a with | ⟨0, _⟩ => rfl | ⟨1, _⟩ => rfl | ⟨2, _⟩ => rfl
  rw [e, val_main_v43_apply, val_main_v42_apply, val_main_v41_apply, e', v40_at]
  rfl

/-- The normalised, scaled, shifted and clamped row, in terms of the row it normalises. -/
theorem v61_row (n : Fin 4096) (s : Fin 49) (f : Fin 256) :
    val_main_v61 (F := Ideal) x0 x1 x2 x3 x4 x5 x6 x7 (ix3 n s f)
      = normClamp c256 (fun k => val_main_v36 (F := Ideal) x0 x1 x2 x3 x4 x5 (ix3 n s k)) (fun k => x6 (ix1 k)) (fun k => x7 (ix1 k)) f := by
  rw [val_main_v61_apply, val_main_call1_v0_apply, val_main_call1_cst_apply, val_main_v60_apply,
    val_main_v57_apply, val_main_v59_apply, val_main_v58_apply, val_main_v54_apply,
    val_main_v56_apply, val_main_v55_apply, val_main_v49_apply, val_main_v53_apply,
    val_main_v52_apply, val_main_v51_apply, val_main_v50_apply, val_main_cst_8_apply,
    val_main_v48_apply]
  have e1 : idx_main_v48 (ix3 n s f) = ix3 n s (0 : Fin 1) := by
    funext a; match a with | ⟨0, _⟩ => rfl | ⟨1, _⟩ => rfl | ⟨2, _⟩ => rfl
  have e2 : idx_main_v53 (ix3 n s f) = ix3 n s (0 : Fin 1) := by
    funext a; match a with | ⟨0, _⟩ => rfl | ⟨1, _⟩ => rfl | ⟨2, _⟩ => rfl
  have e3 : idx_main_v55 (idx_main_v56 (ix3 n s f)) = ix1 f := by
    funext a; match a with | ⟨0, _⟩ => rfl
  have e4 : idx_main_v58 (idx_main_v59 (ix3 n s f)) = ix1 f := by
    funext a; match a with | ⟨0, _⟩ => rfl
  rw [e1, e2, e3, e4, v40_at, v47_at]
  rfl

/-- The second activations are the specification's. -/
theorem v61_at (n : Fin 4096) (s : Fin 49) (o : Fin 256) :
    val_main_v61 (F := Ideal) x0 x1 x2 x3 x4 x5 x6 x7 (ix3 n s o) = act2 x0 x1 x2 x3 x4 x5 x6 x7 n s o := by
  rw [v61_row]
  have hv : (fun k => val_main_v36 (F := Ideal) x0 x1 x2 x3 x4 x5 (ix3 n s k))
      = mix2 (act1 x0 x1 x2 x3 x4 x5 n) (fun f o' => genEntry x0 x2 x3 n (outCol f o')) s :=
    funext fun k => v36_at x0 x1 x2 x3 x4 x5 n s k
  rw [hv]

/-! ## The dense layer on the flattened activations -/

/-- The flattened coordinate `j` of sample `n` is position `j / 256`, channel `j % 256`. -/
theorem v66_at (n : Fin 4096) (k : Fin 256) :
    val_main_v66 (F := Ideal) x0 x1 x2 x3 x4 x5 x6 x7 x8 x9 (ix2 n k) = act3 x0 x1 x2 x3 x4 x5 x6 x7 x8 x9 n k := by
  rw [val_main_v66_apply, val_main_v63_apply, val_main_v65_apply, val_main_v64_apply, Ideal.addf_def]
  show _ = dense (act2 x0 x1 x2 x3 x4 x5 x6 x7 n) (fun j k' => x8 (ix2 j k')) (fun k' => x9 (ix1 k')) k
  unfold dense
  refine congrArg₂ (· + ·) (Finset.sum_congr rfl fun j _ => ?_) (congrArg x9 ?_)
  · rw [val_main_v62_apply]
    have e : idx_main_v62 (lidx_main_v63 (ix2 n k) j) = ix3 n (flatPos j) (flatChan j) := by
      have hn := n.isLt; have hj := j.isLt
      funext a; apply Fin.ext
      match a with
      | ⟨0, _⟩ => show (n.val * 12544 + j.val) / 12544 = n.val; omega
      | ⟨1, _⟩ => show (n.val * 12544 + j.val) / 256 % 49 = j.val / 256; omega
      | ⟨2, _⟩ => show (n.val * 12544 + j.val) % 256 = j.val % 256; omega
    have er : ridx_main_v63 (ix2 n k) j = ix2 j k := by
      funext a; match a with | ⟨0, _⟩ => rfl | ⟨1, _⟩ => rfl
    rw [e, er, v61_at]
  · funext a; match a with | ⟨0, _⟩ => rfl

/-! ## The third normalisation (the dense layer's rows of 256) -/

/-- The row's mean: the sum of the row (the reduction starts from zero) divided by the row's length. -/
theorem v70_at (n : Fin 4096) :
    val_main_v70 (F := Ideal) x0 x1 x2 x3 x4 x5 x6 x7 x8 x9 (ix2 n (0 : Fin 1)) = rowMean c256 (fun k => val_main_v66 (F := Ideal) x0 x1 x2 x3 x4 x5 x6 x7 x8 x9 (ix2 n k)) := by
  rw [val_main_v70_apply, val_main_v68_apply, val_main_v69_apply, val_main_cst_10_apply,
    val_main_v67_apply, val_main_cst_9_apply]
  simp only [Ideal.hostDivf_def, Ideal.ofBits_def, Ideal.ofBits_zero_f32, zero_add]
  unfold rowMean
  refine congrArg (fun t => Ideal.div t _) (Finset.sum_congr rfl fun k _ => congrArg (val_main_v66 (F := Ideal) x0 x1 x2 x3 x4 x5 x6 x7 x8 x9) ?_)
  funext a; match a with | ⟨0, _⟩ => rfl | ⟨1, _⟩ => rfl

/-- The row's variance: the sum of the squared deviations from the mean, divided by the row's length. -/
theorem v77_at (n : Fin 4096) :
    val_main_v77 (F := Ideal) x0 x1 x2 x3 x4 x5 x6 x7 x8 x9 (ix2 n (0 : Fin 1)) = rowVar c256 (fun k => val_main_v66 (F := Ideal) x0 x1 x2 x3 x4 x5 x6 x7 x8 x9 (ix2 n k)) := by
  rw [val_main_v77_apply, val_main_v75_apply, val_main_v76_apply, val_main_cst_12_apply,
    val_main_v74_apply, val_main_cst_11_apply]
  simp only [Ideal.hostDivf_def, Ideal.ofBits_def, Ideal.ofBits_zero_f32, zero_add]
  unfold rowVar
  refine congrArg (fun t => Ideal.div t _) (Finset.sum_congr rfl fun k _ => ?_)
  have e : idx_main_v74 (idx_main_v75 (ix2 n (0 : Fin 1))) k = ix2 n k := by
    funext a; match a with | ⟨0, _⟩ => rfl | ⟨1, _⟩ => rfl
  have e' : idx_main_v71 (ix2 n k) = ix2 n (0 : Fin 1) := by
    funext a; match a with | ⟨0, _⟩ => rfl | ⟨1, _⟩ => rfl
  rw [e, val_main_v73_apply, val_main_v72_apply, val_main_v71_apply, e', v70_at]
  rfl

/-- The normalised, scaled, shifted and clamped row, in terms of the row it normalises. -/
theorem v91_row (n : Fin 4096) (f : Fin 256) :
    val_main_v91 (F := Ideal) x0 x1 x2 x3 x4 x5 x6 x7 x8 x9 x10 x11 (ix2 n f)
      = normClamp c256 (fun k => val_main_v66 (F := Ideal) x0 x1 x2 x3 x4 x5 x6 x7 x8 x9 (ix2 n k)) (fun k => x10 (ix1 k)) (fun k => x11 (ix1 k)) f := by
  rw [val_main_v91_apply, val_main_call2_v0_apply, val_main_call2_cst_apply, val_main_v90_apply,
    val_main_v87_apply, val_main_v89_apply, val_main_v88_apply, val_main_v84_apply,
    val_main_v86_apply, val_main_v85_apply, val_main_v79_apply, val_main_v83_apply,
    val_main_v82_apply, val_main_v81_apply, val_main_v80_apply, val_main_cst_13_apply,
    val_main_v78_apply]
  have e1 : idx_main_v78 (ix2 n f) = ix2 n (0 : Fin 1) := by
    funext a; match a with | ⟨0, _⟩ => rfl | ⟨1, _⟩ => rfl
  have e2 : idx_main_v83 (ix2 n f) = ix2 n (0 : Fin 1) := by
    funext a; match a with | ⟨0, _⟩ => rfl | ⟨1, _⟩ => rfl
  have e3 : idx_main_v85 (idx_main_v86 (ix2 n f)) = ix1 f := by
    funext a; match a with | ⟨0, _⟩ => rfl
  have e4 : idx_main_v88 (idx_main_v89 (ix2 n f)) = ix1 f := by
    funext a; match a with | ⟨0, _⟩ => rfl
  rw [e1, e2, e3, e4, v70_at, v77_at]
  rfl

/-! ## The whole result -/

/-- The reference's result array is the specification function of the twelve argument arrays. -/
theorem ref_is_G (x0 : (⟨S4096x256, .f32⟩ : BufTy).Contents (Elt Ideal)) (x1 : (⟨S4096x256x7x7, .f32⟩ : BufTy).Contents (Elt Ideal))
    (x2 : (⟨S256x32768, .f32⟩ : BufTy).Contents (Elt Ideal)) (x3 : (⟨S32768, .f32⟩ : BufTy).Contents (Elt Ideal))
    (x4 x5 : (⟨S64, .f32⟩ : BufTy).Contents (Elt Ideal)) (x6 x7 : (⟨S256, .f32⟩ : BufTy).Contents (Elt Ideal))
    (x8 : (⟨S12544x256, .f32⟩ : BufTy).Contents (Elt Ideal)) (x9 x10 x11 : (⟨S256, .f32⟩ : BufTy).Contents (Elt Ideal)) :
    Cert.ReferenceIdeal.Read.val_main_v91 (F := Ideal) x0 x1 x2 x3 x4 x5 x6 x7 x8 x9 x10 x11
      = Cert.Spec.G x0 x1 x2 x3 x4 x5 x6 x7 x8 x9 x10 x11 := by
  funext i
  obtain ⟨n, k, rfl⟩ : ∃ (n : Fin 4096) (k : Fin 256), i = ix2 n k := ⟨i 0, i 1, eq_ix2 i⟩
  rw [G_ix2, v91_row]
  have hv : (fun k' => val_main_v66 (F := Ideal) x0 x1 x2 x3 x4 x5 x6 x7 x8 x9 (ix2 n k'))
      = act3 x0 x1 x2 x3 x4 x5 x6 x7 x8 x9 n :=
    funext fun k' => v66_at x0 x1 x2 x3 x4 x5 x6 x7 x8 x9 n k'
  rw [hv]
  rfl

end Cert.RefSpec

end
-- ==== Proof.RefValue.lean ====
/-
  The idealized reference's result is the specification's function of the twelve arguments: the run's composed term is the
  last stage of the stage-by-stage reading, and that stage is `Cert.Spec.G`.
-/
import proofs.«139996_j24970939859163_2_alg».proof.Proof.RefRunPatched
import proofs.«139996_j24970939859163_2_alg».proof.Proof.RefIsSpec

set_option maxRecDepth 16384

noncomputable section

namespace Cert.RefSpec

open Cert.ReferenceIdeal Cert.ReferenceIdeal.Gen Idealize.ShloMosaic Idealize.ShloMosaic.TcCoe Idealize.SL.Sem

/-- The run's composed term of the arguments is the last stage. -/
theorem res_eq_stage (m : (ℓ : Loc nD τ sig) → Buf (Elt Ideal) ℓ) (c : Dev nD) :
    Cert.ReferenceIdeal.Value.res_main_v91 (F := Ideal) m c
      = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v91; rfl

/-- So the reference's result is the specification's function of the arguments. -/
theorem res_eq_G (m : (ℓ : Loc nD τ sig) → Buf (Elt Ideal) ℓ) (c : Dev nD) :
    Cert.ReferenceIdeal.Value.res_main_v91 (F := Ideal) m c
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (res_eq_stage m c).trans (ref_is_G _ _ _ _ _ _ _ _ _ _ _ _)

end Cert.RefSpec

end
-- ==== Proof.lean ====
/-
  The certificate: a two-stage convolution-and-dense network with per-sample generated weights, as two pipelined
  kernels, against its plain reference.

  Both programs compute, for each of the 4096 samples, the same function of the twelve arguments (`Cert.Spec.G`,
  Proof/Spec.lean): the sample's weight matrices as an affine image of its parameter row; two per-position matrix
  products, each followed by a row's layer normalisation and a clamp at zero; a dense layer on the flattened
  activations; a last normalisation and clamp. The kernel makes the weights in a first pallas_call (blocks of 512
  samples by 2048 columns) and everything else in a second (blocks of 64 samples); the reference is one straight line
  of array operations. At the extended reals every operation is the exact one and the two differ only in how arrays
  are cut, laid out and indexed, so the results are equal index by index, with no condition on the inputs:
    Proof/Region0Value.lean, Proof/Region1Body.lean — what each pallas_call leaves in its result arrays;
    Proof/HostReads.lean, Proof/KernelValue.lean — what the host operations hand the pallas_calls, and the result as `G`;
    Proof/RefIsSpec.lean, Proof/RefValue.lean — the reference's result as `G`.
  The kernel's idealization rewrote nothing, so `preserves` asks nothing.
-/
import proofs.«139996_j24970939859163_2_alg».proof.Defs
import proofs.«139996_j24970939859163_2_alg».proof.Proof.Gen.Kernel
import proofs.«139996_j24970939859163_2_alg».proof.Proof.Gen.Kernel.Skeleton
import proofs.«139996_j24970939859163_2_alg».proof.Proof.Gen.Kernel.Launch
import proofs.«139996_j24970939859163_2_alg».proof.Proof.Gen.Kernel.Points
import proofs.«139996_j24970939859163_2_alg».proof.Proof.Gen.Kernel.Frame
import proofs.«139996_j24970939859163_2_alg».proof.Proof.Gen.KernelIdeal
import proofs.«139996_j24970939859163_2_alg».proof.Proof.Gen.KernelIdeal.Skeleton
import proofs.«139996_j24970939859163_2_alg».proof.Proof.Gen.KernelIdeal.Launch
import proofs.«139996_j24970939859163_2_alg».proof.Proof.Gen.KernelIdeal.Points
import proofs.«139996_j24970939859163_2_alg».proof.Proof.Gen.KernelIdeal.Frame
import proofs.«139996_j24970939859163_2_alg».proof.Proof.Gen.ReferenceIdeal
import proofs.«139996_j24970939859163_2_alg».proof.Proof.Gen.Pre_finite_inputs
import proofs.«139996_j24970939859163_2_alg».proof.Proof.KernelValue
import proofs.«139996_j24970939859163_2_alg».proof.Proof.RefValue
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at `Cert.Spec.G` of their arguments, and the arguments agree. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.ValueG.result_eq_G m ρ c), (h c).2⟩)
      (Cert.KernelIdeal.ValueRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSpec.res_eq_G m' c]
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
